-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S4097x512 : Shape := ⟨2, ![4097, 512]⟩
abbrev S4x2048 : Shape := ⟨2, ![4, 2048]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S4097x512 : S_.BroadcastsInDim S4097x512 (![] : Fin 0 → Fin S4097x512.rank)
  reducesTo_S4097x512_S_d0_1 : S4097x512.ReducesTo [0, 1] S_

variable [Facts]

def fn {F : FTy → Type} [FloatOps F] (main_arg0 : FVec F S4x2048x512 .f32) (main_arg1 : FVec F S4097x512 .f32) (main_arg2 : IVec S4x2048 32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S4097x512 .f32 := Host.absf main_arg1
  let main_cst_0 : FVec F S_ .f32 := constant S_ .f32 0x7F800000#32
  let main_v5 : FVec F S4097x512 .f32 := broadcastInDim S4097x512 ![] bcast_S_S4097x512 main_cst_0
  let main_v6 : IVec S4097x512 1 := cmpf .olt main_v4 main_v5
  let main_c_1 : IVec S_ 1 := constantI S_ 1 1#1
  let main_v7 : IVec S_ 1 := (fun x v => Host.reduce IntOp.andi x v reducesTo_S4097x512_S_d0_1 h_S_) main_v6 main_c_1
  let main_v8 : IVec S_ 1 := andi main_v3 main_v7
  main_v8
-- ==== Kernel.lean ====
abbrev S4x2048x512 : Shape := ⟨3, ![4, 2048, 512]⟩
abbrev S4097x512 : Shape := ⟨2, ![4097, 512]⟩
abbrev S4x2048 : Shape := ⟨2, ![4, 2048]⟩
abbrev S4x2048x1 : Shape := ⟨3, ![4, 2048, 1]⟩
abbrev S4x1x2048 : Shape := ⟨3, ![4, 1, 2048]⟩
abbrev S4x2048x2048 : Shape := ⟨3, ![4, 2048, 2048]⟩
abbrev S_ : Shape := ⟨0, ![]⟩
abbrev S4 : Shape := ⟨1, ![4]⟩
abbrev S4x1x1 : Shape := ⟨3, ![4, 1, 1]⟩
abbrev S2048 : Shape := ⟨1, ![2048]⟩
abbrev S1x2048x1 : Shape := ⟨3, ![1, 2048, 1]⟩
abbrev S4x2048x4097 : Shape := ⟨3, ![4, 2048, 4097]⟩
abbrev S4x2048x2048x1 : Shape := ⟨4, ![4, 2048, 2048, 1]⟩
abbrev S4x2048x2048x3 : Shape := ⟨4, ![4, 2048, 2048, 3]⟩
abbrev S8192x4097 : Shape := ⟨2, ![8192, 4097]⟩
abbrev S8192x4224 : Shape := ⟨2, ![8192, 4224]⟩
abbrev S4224x512 : Shape := ⟨2, ![4224, 512]⟩
abbrev S8192x512 : Shape := ⟨2, ![8192, 512]⟩
abbrev S1024x1408 : Shape := ⟨2, ![1024, 1408]⟩
abbrev S1408x512 : Shape := ⟨2, ![1408, 512]⟩
abbrev S1024x512 : Shape := ⟨2, ![1024, 512]⟩

abbrev nBuf : Space → Nat
  | .hbm => 65
  | .vmem => 9
  | .smem => 0
  | _ => 0

abbrev bufTy : (tb : Table) → Fin (tcTables nBuf tb) → BufTy
  | .hbm, ⟨0, _⟩ => ⟨S4x2048x512, .f32⟩
  | .hbm, ⟨1, _⟩ => ⟨S4097x512, .f32⟩
  | .hbm, ⟨2, _⟩ => ⟨S4x2048, .i32⟩
  | .hbm, ⟨3, _⟩ => ⟨S4x2048x1, .i32⟩
  | .hbm, ⟨4, _⟩ => ⟨S4x1x2048, .i32⟩
  | .hbm, ⟨5, _⟩ => ⟨S4x2048x2048, .i32⟩
  | .hbm, ⟨6, _⟩ => ⟨S4x2048x2048, .i32⟩
  | .hbm, ⟨7, _⟩ => ⟨S4x2048x2048, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S4x2048x2048, .i32⟩
  | .hbm, ⟨12, _⟩ => ⟨S4x2048x2048, .i32⟩
  | .hbm, ⟨13, _⟩ => ⟨S_, .i32⟩
  | .hbm, ⟨14, _⟩ => ⟨S4x2048x2048, .i32⟩
  | .hbm, ⟨15, _⟩ => ⟨S4x2048x2048, .i32⟩
  | .hbm, ⟨16, _⟩ => ⟨S_, .i32⟩
  | .hbm, ⟨17, _⟩ => ⟨S4x2048x2048, .i32⟩
  | .hbm, ⟨18, _⟩ => ⟨S4x2048x2048, .i32⟩
  | .hbm, ⟨19, _⟩ => ⟨S4, .i32⟩
  | .hbm, ⟨20, _⟩ => ⟨S4x1x1, .i32⟩
  | .hbm, ⟨21, _⟩ => ⟨S2048, .i32⟩
  | .hbm, ⟨22, _⟩ => ⟨S1x2048x1, .i32⟩
  | .hbm, ⟨23, _⟩ => ⟨S_, .f32⟩
  | .hbm, ⟨24, _⟩ => ⟨S4x2048x4097, .f32⟩
  | .hbm, ⟨25, _⟩ => ⟨S_, .i32⟩
  | .hbm, ⟨26, _⟩ => ⟨S4x1x1, .i32⟩
  | .hbm, ⟨27, _⟩ => ⟨S4x1x1, .i1⟩
  | .hbm, ⟨28, _⟩ => ⟨S_, .i32⟩
  | .hbm, ⟨29, _⟩ => ⟨S4x1x1, .i32⟩
  | .hbm, ⟨30, _⟩ => ⟨S4x1x1, .i32⟩
  | .hbm, ⟨31, _⟩ => ⟨S4x1x1, .i32⟩
  | .hbm, ⟨32, _⟩ => ⟨S_, .i32⟩
  | .hbm, ⟨33, _⟩ => ⟨S1x2048x1, .i32⟩
  | .hbm, ⟨34, _⟩ => ⟨S1x2048x1, .i1⟩
  | .hbm, ⟨35, _⟩ => ⟨S_, .i32⟩
  | .hbm, ⟨36, _⟩ => ⟨S1x2048x1, .i32⟩
  | .hbm, ⟨37, _⟩ => ⟨S1x2048x1, .i32⟩
  | .hbm, ⟨38, _⟩ => ⟨S1x2048x1, .i32⟩
  | .hbm, ⟨39, _⟩ => ⟨S_, .i32⟩
  | .hbm, ⟨40, _⟩ => ⟨S4x2048x2048, .i32⟩
  | .hbm, ⟨41, _⟩ => ⟨S4x2048x2048, .i1⟩
  | .hbm, ⟨42, _⟩ => ⟨S_, .i32⟩
  | .hbm, ⟨43, _⟩ => ⟨S4x2048x2048, .i32⟩
  | .hbm, ⟨44, _⟩ => ⟨S4x2048x2048, .i32⟩
  | .hbm, ⟨45, _⟩ => ⟨S4x2048x2048, .i32⟩
  | .hbm, ⟨46, _⟩ => ⟨S4x2048x2048, .i32⟩
  | .hbm, ⟨47, _⟩ => ⟨S4x2048x2048, .i32⟩
  | .hbm, ⟨48, _⟩ => ⟨S4x2048x2048x1, .i32⟩
  | .hbm, ⟨49, _⟩ => ⟨S4x2048x2048x1, .i32⟩
  | .hbm, ⟨50, _⟩ => ⟨S4x2048x2048x1, .i32⟩
  | .hbm, ⟨51, _⟩ => ⟨S4x2048x2048x3, .i32⟩
  | .hbm, ⟨52, _⟩ => ⟨S_, .f32⟩
  | .hbm, ⟨53, _⟩ => ⟨S4x2048x2048, .f32⟩
  | .hbm, ⟨54, _⟩ => ⟨S4x2048x4097, .f32⟩
  | .hbm, ⟨55, _⟩ => ⟨S8192x4097, .f32⟩
  | .hbm, ⟨56, _⟩ => ⟨S_, .i32⟩
  | .hbm, ⟨57, _⟩ => ⟨S_, .f32⟩
  | .hbm, ⟨58, _⟩ => ⟨S8192x4224, .f32⟩
  | .hbm, ⟨59, _⟩ => ⟨S_, .i32⟩
  | .hbm, ⟨60, _⟩ => ⟨S_, .f32⟩
  | .hbm, ⟨61, _⟩ => ⟨S4224x512, .f32⟩
  | .hbm, ⟨62, _⟩ => ⟨S8192x512, .f32⟩
  | .hbm, ⟨63, _⟩ => ⟨S8192x512, .f32⟩
  | .hbm, ⟨64, _⟩ => ⟨S4x2048x512, .f32⟩
  | .local _ .vmem, ⟨0, _⟩ => ⟨S1024x1408, .f32⟩
  | .local _ .vmem, ⟨1, _⟩ => ⟨S1024x1408, .f32⟩
  | .local _ .vmem, ⟨2, _⟩ => ⟨S1408x512, .f32⟩
  | .local _ .vmem, ⟨3, _⟩ => ⟨S1408x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_call1_v0 : Ref sig .tc := ⟨.hbm, 57, rfl⟩
abbrev main_v37 : Ref sig .tc := ⟨.hbm, 58, rfl⟩
abbrev main_c_10 : Ref sig .tc := ⟨.hbm, 59, rfl⟩
abbrev main_call2_v0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 3], ![false, false]⟩

def k0_cond2 (i : grid0.Coords) : BitVec 1 :=
  let arg1 : BitVec 32 := BitVec.ofNat 32 (i 1).val
  let c2_i32 : BitVec 32 := 2#32
  let v15 : BitVec 1 := Scalar.cmpi .eq arg1 c2_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S4x2048_S4x2048x1_0_1 : S4x2048.BroadcastsInDim S4x2048x1 (![0, 1] : Fin 2 → Fin S4x2048x1.rank)
  bcast_S4x2048_S4x1x2048_0_2 : S4x2048.BroadcastsInDim S4x1x2048 (![0, 2] : Fin 2 → Fin S4x1x2048.rank)
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  bcast_S_S4x2048x2048 : S_.BroadcastsInDim S4x2048x2048 (![] : Fin 0 → Fin S4x2048x2048.rank)
  bcast_S4_S4x1x1_0 : S4.BroadcastsInDim S4x1x1 (![0] : Fin 1 → Fin S4x1x1.rank)
  bcast_S2048_S1x2048x1_1 : S2048.BroadcastsInDim S1x2048x1 (![1] : Fin 1 → Fin S1x2048x1.rank)
  bcast_S_S4x2048x4097 : S_.BroadcastsInDim S4x2048x4097 (![] : Fin 0 → Fin S4x2048x4097.rank)
  bcast_S_S4x1x1 : S_.BroadcastsInDim S4x1x1 (![] : Fin 0 → Fin S4x1x1.rank)
  bcast_S_S1x2048x1 : S_.BroadcastsInDim S1x2048x1 (![] : Fin 0 → Fin S1x2048x1.rank)
  bcast_S4x1x1_S4x2048x2048_0_1_2 : S4x1x1.BroadcastsInDim S4x2048x2048 (![0, 1, 2] : Fin 3 → Fin S4x2048x2048.rank)
  bcast_S1x2048x1_S4x2048x2048_0_1_2 : S1x2048x1.BroadcastsInDim S4x2048x2048 (![0, 1, 2] : Fin 3 → Fin S4x2048x2048.rank)
  bcast_S4x2048x2048_S4x2048x2048x1_0_1_2 : S4x2048x2048.BroadcastsInDim S4x2048x2048x1 (![0, 1, 2] : Fin 3 → Fin S4x2048x2048x1.rank)
  concatenates_S4x2048x2048x1_S4x2048x2048x1_S4x2048x2048x1_S4x2048x2048x3_d3 : Shape.Concatenates [S4x2048x2048x1, S4x2048x2048x1, S4x2048x2048x1] S4x2048x2048x3 3
  shapeCasts_S4x2048x4097_S8192x4097 : S4x2048x4097.ShapeCasts S8192x4097
  pads_S8192x4097_S8192x4224_000_01270 : S8192x4097.Pads (![0, 0] : Fin 2 → Nat) ![0, 127] ![0, 0] S8192x4224
  h_S_ : 0 < S_.numel
  pads_S4097x512_S4224x512_01270_000 : S4097x512.Pads (![0, 0] : Fin 2 → Nat) ![127, 0] ![0, 0] S4224x512
  shapeCasts_S4x2048x512_S8192x512 : S4x2048x512.ShapeCasts S8192x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1408_S1024x1408_0_0 : ∀ a, (![0, 0] : Fin 2 → Nat) a + S1024x1408.size a ≤ S1024x1408.size a
  h_S1024x1408 : 0 < S1024x1408.numel
  shapeCasts_S1024x1408_S1024x1408 : S1024x1408.ShapeCasts S1024x1408
  bitsLt_bf16_f32 : FTy.bits .bf16 < FTy.bits .f32
  inb_S1408x512_S1408x512_0_0 : ∀ a, (![0, 0] : Fin 2 → Nat) a + S1408x512.size a ≤ S1408x512.size a
  h_S1408x512 : 0 < S1408x512.numel
  shapeCasts_S1408x512_S1408x512 : S1408x512.ShapeCasts S1408x512
  shapeCasts_S8192x512_S4x2048x512 : S8192x512.ShapeCasts S4x2048x512
  scatter_S4x2048x4097_S4x2048x2048x3_S4x2048x2048_n_012_012_3_wf : ScatterDims.WF S4x2048x4097 S4x2048x2048x3 S4x2048x2048 [] [0, 1, 2] [0, 1, 2] 3
  dot_S1024x1408_S1408x512_S1024x512_1_0_0_1_n_n_wf : DotDims.WF S1024x1408 S1408x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1408.size a ≤ S8192x4224.size a
  hwx0_0 : ∀ i : grid0.Coords, EltTy.bits .f32 = 32 ∨ (Rect.block (s := S8192x4224) S1024x1408.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1408x512.size a ≤ S4224x512.size a
  hwx0_1 : ∀ i : grid0.Coords, EltTy.bits .f32 = 32 ∨ (Rect.block (s := S4224x512) S1408x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .f32 = 32 ∨ (Rect.block (s := S8192x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .f32 = 32 ∨ (Rect.block (s := S8192x512) S1024x512.size (cc0_transform_3 i) (hinb0_3 i)).WholeWords (EltTy.packing .f32)

variable [Facts₀]

def scatter_S4x2048x4097_S4x2048x2048x3_S4x2048x2048_n_012_012_3 : ScatterDims S4x2048x4097 S4x2048x2048x3 S4x2048x2048 where
  updateWindowDims := []
  insertedWindowDims := [0, 1, 2]
  scatterDimsToOperandDims := [0, 1, 2]
  indexVectorDim := 3
  wf := scatter_S4x2048x4097_S4x2048x2048x3_S4x2048x2048_n_012_012_3_wf
def dot_S1024x1408_S1408x512_S1024x512_1_0_0_1_n_n : DotDims S1024x1408 S1408x512 S1024x512 where
  lhsContracting := [1]
  rhsContracting := [0]
  lhsNonContracting := [0]
  rhsNonContracting := [1]
  lhsBatch := []
  rhsBatch := []
  wf := dot_S1024x1408_S1408x512_S1024x512_1_0_0_1_n_n_wf

abbrev win0_0 : Pipeline.Window sig grid0 :=
  Pipeline.Window.ofSpec (Memref.whole main_v37) S1024x1408.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S1408x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x512 : Shape := ⟨3, ![4, 2048, 512]⟩
abbrev S4097x512 : Shape := ⟨2, ![4097, 512]⟩
abbrev S4x2048 : Shape := ⟨2, ![4, 2048]⟩
abbrev S4x2048x1 : Shape := ⟨3, ![4, 2048, 1]⟩
abbrev S4x1x2048 : Shape := ⟨3, ![4, 1, 2048]⟩
abbrev S4x2048x2048 : Shape := ⟨3, ![4, 2048, 2048]⟩
abbrev S_ : Shape := ⟨0, ![]⟩
abbrev S4 : Shape := ⟨1, ![4]⟩
abbrev S4x1x1 : Shape := ⟨3, ![4, 1, 1]⟩
abbrev S2048 : Shape := ⟨1, ![2048]⟩
abbrev S1x2048x1 : Shape := ⟨3, ![1, 2048, 1]⟩
abbrev S4x2048x4097 : Shape := ⟨3, ![4, 2048, 4097]⟩
abbrev S4x2048x2048x1 : Shape := ⟨4, ![4, 2048, 2048, 1]⟩
abbrev S4x2048x2048x3 : Shape := ⟨4, ![4, 2048, 2048, 3]⟩

abbrev nBuf : Space → Nat
  | .hbm => 60
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4097x512, .f32⟩
  | .hbm, ⟨2, _⟩ => ⟨S4x2048, .i32⟩
  | .hbm, ⟨3, _⟩ => ⟨S4x2048x1, .i32⟩
  | .hbm, ⟨4, _⟩ => ⟨S4x1x2048, .i32⟩
  | .hbm, ⟨5, _⟩ => ⟨S4x2048x2048, .i32⟩
  | .hbm, ⟨6, _⟩ => ⟨S4x2048x2048, .i32⟩
  | .hbm, ⟨7, _⟩ => ⟨S4x2048x2048, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S4x2048x2048, .i32⟩
  | .hbm, ⟨12, _⟩ => ⟨S4x2048x2048, .i32⟩
  | .hbm, ⟨13, _⟩ => ⟨S_, .i32⟩
  | .hbm, ⟨14, _⟩ => ⟨S4x2048x2048, .i32⟩
  | .hbm, ⟨15, _⟩ => ⟨S4x2048x2048, .i32⟩
  | .hbm, ⟨16, _⟩ => ⟨S_, .i32⟩
  | .hbm, ⟨17, _⟩ => ⟨S4x2048x2048, .i32⟩
  | .hbm, ⟨18, _⟩ => ⟨S4x2048x2048, .i32⟩
  | .hbm, ⟨19, _⟩ => ⟨S4, .i32⟩
  | .hbm, ⟨20, _⟩ => ⟨S4x1x1, .i32⟩
  | .hbm, ⟨21, _⟩ => ⟨S2048, .i32⟩
  | .hbm, ⟨22, _⟩ => ⟨S1x2048x1, .i32⟩
  | .hbm, ⟨23, _⟩ => ⟨S_, .f32⟩
  | .hbm, ⟨24, _⟩ => ⟨S4x2048x4097, .f32⟩
  | .hbm, ⟨25, _⟩ => ⟨S_, .i32⟩
  | .hbm, ⟨26, _⟩ => ⟨S4x1x1, .i32⟩
  | .hbm, ⟨27, _⟩ => ⟨S4x1x1, .i1⟩
  | .hbm, ⟨28, _⟩ => ⟨S_, .i32⟩
  | .hbm, ⟨29, _⟩ => ⟨S4x1x1, .i32⟩
  | .hbm, ⟨30, _⟩ => ⟨S4x1x1, .i32⟩
  | .hbm, ⟨31, _⟩ => ⟨S4x1x1, .i32⟩
  | .hbm, ⟨32, _⟩ => ⟨S_, .i32⟩
  | .hbm, ⟨33, _⟩ => ⟨S1x2048x1, .i32⟩
  | .hbm, ⟨34, _⟩ => ⟨S1x2048x1, .i1⟩
  | .hbm, ⟨35, _⟩ => ⟨S_, .i32⟩
  | .hbm, ⟨36, _⟩ => ⟨S1x2048x1, .i32⟩
  | .hbm, ⟨37, _⟩ => ⟨S1x2048x1, .i32⟩
  | .hbm, ⟨38, _⟩ => ⟨S1x2048x1, .i32⟩
  | .hbm, ⟨39, _⟩ => ⟨S_, .i32⟩
  | .hbm, ⟨40, _⟩ => ⟨S4x2048x2048, .i32⟩
  | .hbm, ⟨41, _⟩ => ⟨S4x2048x2048, .i1⟩
  | .hbm, ⟨42, _⟩ => ⟨S_, .i32⟩
  | .hbm, ⟨43, _⟩ => ⟨S4x2048x2048, .i32⟩
  | .hbm, ⟨44, _⟩ => ⟨S4x2048x2048, .i32⟩
  | .hbm, ⟨45, _⟩ => ⟨S4x2048x2048, .i32⟩
  | .hbm, ⟨46, _⟩ => ⟨S4x2048x2048, .i32⟩
  | .hbm, ⟨47, _⟩ => ⟨S4x2048x2048, .i32⟩
  | .hbm, ⟨48, _⟩ => ⟨S4x2048x2048x1, .i32⟩
  | .hbm, ⟨49, _⟩ => ⟨S4x2048x2048x1, .i32⟩
  | .hbm, ⟨50, _⟩ => ⟨S4x2048x2048x1, .i32⟩
  | .hbm, ⟨51, _⟩ => ⟨S4x2048x2048x3, .i32⟩
  | .hbm, ⟨52, _⟩ => ⟨S_, .f32⟩
  | .hbm, ⟨53, _⟩ => ⟨S4x2048x2048, .f32⟩
  | .hbm, ⟨54, _⟩ => ⟨S4x2048x4097, .f32⟩
  | .hbm, ⟨55, _⟩ => ⟨S4x2048x512, .f32⟩
  | .hbm, ⟨56, _⟩ => ⟨S_, .f32⟩
  | .hbm, ⟨57, _⟩ => ⟨S4x2048x512, .f32⟩
  | .hbm, ⟨58, _⟩ => ⟨S4x2048x512, .f32⟩
  | .hbm, ⟨59, _⟩ => ⟨S4x2048x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]

class Facts₀ : Prop where
  bcast_S4x2048_S4x2048x1_0_1 : S4x2048.BroadcastsInDim S4x2048x1 (![0, 1] : Fin 2 → Fin S4x2048x1.rank)
  bcast_S4x2048_S4x1x2048_0_2 : S4x2048.BroadcastsInDim S4x1x2048 (![0, 2] : Fin 2 → Fin S4x1x2048.rank)
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  bcast_S_S4x2048x2048 : S_.BroadcastsInDim S4x2048x2048 (![] : Fin 0 → Fin S4x2048x2048.rank)
  bcast_S4_S4x1x1_0 : S4.BroadcastsInDim S4x1x1 (![0] : Fin 1 → Fin S4x1x1.rank)
  bcast_S2048_S1x2048x1_1 : S2048.BroadcastsInDim S1x2048x1 (![1] : Fin 1 → Fin S1x2048x1.rank)
  bcast_S_S4x2048x4097 : S_.BroadcastsInDim S4x2048x4097 (![] : Fin 0 → Fin S4x2048x4097.rank)
  bcast_S_S4x1x1 : S_.BroadcastsInDim S4x1x1 (![] : Fin 0 → Fin S4x1x1.rank)
  bcast_S_S1x2048x1 : S_.BroadcastsInDim S1x2048x1 (![] : Fin 0 → Fin S1x2048x1.rank)
  bcast_S4x1x1_S4x2048x2048_0_1_2 : S4x1x1.BroadcastsInDim S4x2048x2048 (![0, 1, 2] : Fin 3 → Fin S4x2048x2048.rank)
  bcast_S1x2048x1_S4x2048x2048_0_1_2 : S1x2048x1.BroadcastsInDim S4x2048x2048 (![0, 1, 2] : Fin 3 → Fin S4x2048x2048.rank)
  bcast_S4x2048x2048_S4x2048x2048x1_0_1_2 : S4x2048x2048.BroadcastsInDim S4x2048x2048x1 (![0, 1, 2] : Fin 3 → Fin S4x2048x2048x1.rank)
  concatenates_S4x2048x2048x1_S4x2048x2048x1_S4x2048x2048x1_S4x2048x2048x3_d3 : Shape.Concatenates [S4x2048x2048x1, S4x2048x2048x1, S4x2048x2048x1] S4x2048x2048x3 3
  bcast_S_S4x2048x512 : S_.BroadcastsInDim S4x2048x512 (![] : Fin 0 → Fin S4x2048x512.rank)
  scatter_S4x2048x4097_S4x2048x2048x3_S4x2048x2048_n_012_012_3_wf : ScatterDims.WF S4x2048x4097 S4x2048x2048x3 S4x2048x2048 [] [0, 1, 2] [0, 1, 2] 3
  dot_S4x2048x4097_S4097x512_S4x2048x512_2_0_01_1_n_n_wf : DotDims.WF S4x2048x4097 S4097x512 S4x2048x512 [2] [0] [0, 1] [1] [] []

variable [Facts₀]

def scatter_S4x2048x4097_S4x2048x2048x3_S4x2048x2048_n_012_012_3 : ScatterDims S4x2048x4097 S4x2048x2048x3 S4x2048x2048 where
  updateWindowDims := []
  insertedWindowDims := [0, 1, 2]
  scatterDimsToOperandDims := [0, 1, 2]
  indexVectorDim := 3
  wf := scatter_S4x2048x4097_S4x2048x2048x3_S4x2048x2048_n_012_012_3_wf
def dot_S4x2048x4097_S4097x512_S4x2048x512_2_0_01_1_n_n : DotDims S4x2048x4097 S4097x512 S4x2048x512 where
  lhsContracting := [2]
  rhsContracting := [0]
  lhsNonContracting := [0, 1]
  rhsNonContracting := [1]
  lhsBatch := []
  rhsBatch := []
  wf := dot_S4x2048x4097_S4097x512_S4x2048x512_2_0_01_1_n_n_wf

class Facts : Prop extends Facts₀ where

variable [Facts]
-- ==== Proof.KFrameKit.lean ====
/-
  The frame of the program, first part: @main around its one kernel region, and what the region's runs are stated over.

  @main is sixty host operations (the offsets' histogram, its padding to 4224 columns, the table's padding to 4224 rows,
  x flattened to [8192, 512]), then the region over a grid of 8 × 3 points, then one reshape of the region's output.
  Here: the buffers' contents when the region is entered, as the fold of the earlier operations over the launch memory;
  that neither those operations nor the later one write an argument array; the block of each window's array at a grid
  point; that an input window's staging buffer holds its block at every point; and the body's two branch conditions
  in closed form over the 24 points: the accumulator is reset where the second grid coordinate is 0 (points ≡ 0 mod 3),
  the output block is stored where it is 2 (points ≡ 2 mod 3), and the output window is idle and not written back elsewhere.
-/
import proofs.«108064_j74182675136571_1_alg».proof.Proof.Gen.Kernel.Launch
import proofs.«108064_j74182675136571_1_alg».proof.Proof.Gen.Kernel.Skeleton
import proofs.«108064_j74182675136571_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the host operations before it. -/
abbrev V0 (c : Dev nD) : Valuation τ sig (Elt F) := StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the earlier host operations, the region, the later one: it reduces to the region continued by the later line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The line after the region touches the region's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the region (only its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the block
    index has not moved), for any proof data whose array is the region-entry contents and whose body leaves the block
    in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (unfetched, the block
    index has not moved), for any proof data whose array is the region-entry contents and whose body leaves the block
    in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (unfetched, the block
    index has not moved), for any proof data whose array is the region-entry contents and whose body leaves the block
    in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument arrays are staged by no window (the windows stage buffers the earlier host operations wrote), so the
    frame run's post at the buffers that bypass the region, read at the three arguments, is the frame claim's. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c)⟩) h

/-! ## The body's branch conditions -/

/-- The accumulator is reset: the second grid coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 3). -/
theorem hcond0_0 : ∀ t : Fin cfg0.N, cond0_0 (grid0.coords t) ↔ t.val % 3 = 0 :=
  (by decide +kernel : ∀ t : Fin grid0.N, cond0_0 (grid0.coords t) ↔ t.val % 3 = 0)

/-- The output block is stored: the second grid coordinate is 2. -/
abbrev cond0_1 (i : grid0.Coords) : Prop := k0_cond2 i = 1#1
/-- It holds at the points ≡ 2 (mod 3). -/
theorem hcond0_1 : ∀ t : Fin cfg0.N, cond0_1 (grid0.coords t) ↔ t.val % 3 = 2 :=
  (by decide +kernel : ∀ t : Fin grid0.N, cond0_1 (grid0.coords t) ↔ t.val % 3 = 2)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the accumulator is reset the output window is idle, -/
theorem idleAt0_3_A : ∀ t : Fin cfg0.N, cond0_0 (grid0.coords t) → ¬cond0_1 (grid0.coords t) → cfg0.idle 3 (grid0.coords t) = true := by decide +kernel
/-- and not written back. -/
theorem noFlush0_3_A : ∀ t : Fin cfg0.N, cond0_0 (grid0.coords t) → ¬cond0_1 (grid0.coords t) → (cfg0.win 3).flush t = false := by decide +kernel
/-- The same at the middle points. -/
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- Where the output block is stored the output window is live. -/
theorem liveAt0_3_C : ∀ t : Fin cfg0.N, ¬cond0_0 (grid0.coords t) → cond0_1 (grid0.coords t) → cfg0.idle 3 (grid0.coords t) = false := by decide +kernel

/-! ## The memrefs the body is called with -/

/-- One staging buffer of the output window, through which its contents are stated. -/
abbrev VO0_3 : View sig .tc .vmem S1024x512 .f32 := (Memref.whole cc0_stg3_0 : Memref sig .tc .vmem S1024x512 .f32).view
abbrev ms0_0 (t : Fin cfg0.N) : Memref sig .tc .vmem S1024x1408 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1408x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0_0 : Memref sig .tc .vmem S1024x512 .f32 := Memref.whole cc0_scratch0
/-- The accumulator as a view: what it holds is stated through it. -/
abbrev VS0_0 : View sig .tc .vmem S1024x512 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KRunA.lean ====
/-
  The kernel body run once at a grid point where the accumulator is reset (second grid coordinate 0) and the output block
  is not stored: on whole staging buffers holding the three input blocks, the output's buffer at any contents handed back
  untouched and the accumulator at any contents, the body runs to its end without a fault, leaving the inputs as they were
  and the accumulator with the stores' pieces written (zeros, then zeros plus the product of the two blocks).
-/
import proofs.«108064_j74182675136571_1_alg».proof.Proof.KFrameKit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the stores leave (last first), with the body's triple at such a point. -/
noncomputable def kernelRun0_A (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i)
    (x0 : Vec F S1024x1408 .f32) (x1 : Vec F S1408x512 .f32) (x2 : Vec F S1024x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_residual_kernel i arg2 harg2 arg3 harg3 arg4 harg4 arg5 harg5 arg6 harg6) K } := by
  refine ⟨[], ?_, fun xi3 E K => ?run⟩
  case run =>
    simp only [cc0__matmul_residual_kernel_eq_skeleton]; unfold cc0__matmul_residual_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KRunB.lean ====
/-
  The kernel body run once at a middle grid point (second grid coordinate 1): neither reset nor output store. The
  accumulator comes in at the contents the point before left and goes out with one piece written: those contents plus
  the product of the two blocks. The output's buffer is handed back untouched.
-/
import proofs.«108064_j74182675136571_1_alg».proof.Proof.KRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the store leaves, with the body's triple at such a point. -/
noncomputable def kernelRun0_B (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : ¬cond0_1 i)
    (x0 : Vec F S1024x1408 .f32) (x1 : Vec F S1408x512 .f32) (x2 : Vec F S1024x512 .f32) (xs0 : Vec F S1024x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_residual_kernel i arg2 harg2 arg3 harg3 arg4 harg4 arg5 harg5 arg6 harg6) K } := by
  refine ⟨[], ?_, fun xi3 E K => ?run⟩
  case run =>
    simp only [cc0__matmul_residual_kernel_eq_skeleton]; unfold cc0__matmul_residual_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KRunC.lean ====
/-
  The kernel body run once at a last grid point of a row block (second grid coordinate 2): the accumulator, at the
  contents the point before left, gets the last product added, and the output block is stored whole: the x block plus the
  accumulator scaled. The output's buffer comes in at any contents.
-/
import proofs.«108064_j74182675136571_1_alg».proof.Proof.KRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the stores leave, with the body's triple at such a point. -/
noncomputable def kernelRun0_C (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x1408 .f32) (x1 : Vec F S1408x512 .f32) (x2 : Vec F S1024x512 .f32) (xs0 : Vec F S1024x512 .f32) :
    Σ' (L3 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_residual_kernel i arg2 harg2 arg3 harg3 arg4 harg4 arg5 harg5 arg6 harg6) K } := by
  refine ⟨?_, ?_, fun E K => ?run⟩
  case run =>
    simp only [cc0__matmul_residual_kernel_eq_skeleton]; unfold cc0__matmul_residual_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KFrame.lean ====
/-
  The frame of the program, last part: what the accumulator and the output's staging buffer hold after every grid point,
  the region's proof data, the body's obligation at every point, the run of @main, and the frame claim.

  The 24 points run row block by row block, three points each.  At the first the accumulator is reset and holds the first
  product; at the second it holds the first two; at the third it holds all three and the output block x + acc · 2^-11 is
  stored and written back.  The accumulator's contents after a point are defined by recursion on the point, each case
  taking what the point before left; the region's invariant carries the accumulator at those contents.
-/
import proofs.«108064_j74182675136571_1_alg».proof.Proof.KRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a point of this kind nothing is stored into the output's buffer: no pieces (a placeholder nothing consults, the
    window being neither written back nor read at the next point). -/
def out0_A_3 (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i)
    (x0 : Vec F S1024x1408 .f32) (x1 : Vec F S1408x512 .f32) (x2 : Vec F S1024x512 .f32) : Vec F S1024x512 .f32 :=
  VO0_3.read (Elt F) (VO0_3.writes (Elt F) VO0_3.junk (kernelRun0_A c i arg2 harg2 arg3 harg3 arg4 harg4 arg5 harg5 arg6 harg6 hc0 hc1 x0 x1 x2).1)

/-- The stores into the accumulator at such a point cover it. -/
theorem scover0_A_0 (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i)
    (x0 : Vec F S1024x1408 .f32) (x1 : Vec F S1408x512 .f32) (x2 : Vec F S1024x512 .f32) (y : S1024x512.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x512.size (by sl_kernel_rfl) y

/-- What such a point leaves in the accumulator: its pieces read back. -/
def sout0_A_0 (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i)
    (x0 : Vec F S1024x1408 .f32) (x1 : Vec F S1408x512 .f32) (x2 : Vec F S1024x512 .f32) : Vec F S1024x512 .f32 :=
  VS0_0.read (Elt F) (VS0_0.writes (Elt F) VS0_0.junk (kernelRun0_A c i arg2 harg2 arg3 harg3 arg4 harg4 arg5 harg5 arg6 harg6 hc0 hc1 x0 x1 x2).2.1)

/-- At a point of this kind nothing is stored into the output's buffer: no pieces (a placeholder nothing consults, the
    window being neither written back nor read at the next point). -/
def out0_B_3 (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : ¬cond0_1 i)
    (x0 : Vec F S1024x1408 .f32) (x1 : Vec F S1408x512 .f32) (x2 : Vec F S1024x512 .f32) (xs0 : Vec F S1024x512 .f32) : Vec F S1024x512 .f32 :=
  VO0_3.read (Elt F) (VO0_3.writes (Elt F) VO0_3.junk (kernelRun0_B c i arg2 harg2 arg3 harg3 arg4 harg4 arg5 harg5 arg6 harg6 hc0 hc1 x0 x1 x2 xs0).1)

/-- The stores into the accumulator at such a point cover it. -/
theorem scover0_B_0 (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : ¬cond0_1 i)
    (x0 : Vec F S1024x1408 .f32) (x1 : Vec F S1408x512 .f32) (x2 : Vec F S1024x512 .f32) (xs0 : Vec F S1024x512 .f32) (y : S1024x512.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1024x512.size (by sl_kernel_rfl) y

/-- What such a point leaves in the accumulator: its pieces read back. -/
def sout0_B_0 (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : ¬cond0_1 i)
    (x0 : Vec F S1024x1408 .f32) (x1 : Vec F S1408x512 .f32) (x2 : Vec F S1024x512 .f32) (xs0 : Vec F S1024x512 .f32) : Vec F S1024x512 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- At a storing point the one store into the output's buffer covers its block. -/
theorem cover0_C_3 (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x1408 .f32) (x1 : Vec F S1408x512 .f32) (x2 : Vec F S1024x512 .f32) (xs0 : Vec F S1024x512 .f32) (y : S1024x512.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1024x512.size (by sl_kernel_rfl) y

/-- What such a point leaves in the output's staging buffer: its pieces read back. -/
def out0_C_3 (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x1408 .f32) (x1 : Vec F S1408x512 .f32) (x2 : Vec F S1024x512 .f32) (xs0 : Vec F S1024x512 .f32) : Vec F S1024x512 .f32 :=
  VO0_3.read (Elt F) (VO0_3.writes (Elt F) VO0_3.junk (kernelRun0_C c i arg2 harg2 arg3 harg3 arg4 harg4 arg5 harg5 arg6 harg6 hc0 hc1 x0 x1 x2 xs0).1)

/-- The stores into the accumulator at such a point cover it. -/
theorem scover0_C_0 (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x1408 .f32) (x1 : Vec F S1408x512 .f32) (x2 : Vec F S1024x512 .f32) (xs0 : Vec F S1024x512 .f32) (y : S1024x512.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x512.size (by sl_kernel_rfl) y

/-- What such a point leaves in the accumulator: its pieces read back. -/
def sout0_C_0 (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x1408 .f32) (x1 : Vec F S1408x512 .f32) (x2 : Vec F S1024x512 .f32) (xs0 : Vec F S1024x512 .f32) : Vec F S1024x512 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the buffers hold after each point -/

/-- After the body at position `n`: (the output's staging buffer, the accumulator). The case is selected by the position
    modulo 3; a middle or last point takes the accumulator the point before left. -/
def outsAt0 (c : Dev nD) : (n : ℕ) → n < cfg0.N → Vec F S1024x512 .f32 × Vec F S1024x512 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 3 = 0 then
      if h1 : (n + 1) % 3 = 2 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 3 = 2 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- At a resetting point. -/
theorem outsAt0_A (c : Dev nD) (t : Fin cfg0.N) (h0 : t.val % 3 = 0) (h1 : ¬t.val % 3 = 2) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- At a middle point: over what the point before left. -/
theorem outsAt0_B (c : Dev nD) (t : Fin cfg0.N) (h0 : ¬t.val % 3 = 0) (h1 : ¬t.val % 3 = 2) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a storing point: over what the point before left. -/
theorem outsAt0_C (c : Dev nD) (t : Fin cfg0.N) (h0 : ¬t.val % 3 = 0) (h1 : t.val % 3 = 2) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at the start the accumulator at anything; afterwards at what the point
    before left; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The region's proof data -/

/-- The arrays as the region finds them; after the body each input's buffer at its block and the output's at `outsAt0`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body's obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the position modulo 3 says which case the point is in;
    the invariant hands the body the accumulator at what the point before left (at anything at the very first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 24 := lt_of_lt_of_eq t.isLt (show cfg0.N = 24 from N_0)
  by_cases h0 : t.val % 3 = 0
  · by_cases h1 : t.val % 3 = 2
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 3 = 2
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [outsAt0_C m c t h0 h1]
      unfold out0_C_3 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 24 := N_0; omega)

/-! ## The run and the frame -/

set_option backward.isDefEq.respectTransparency.types false in
/-- Every weakly fair execution of @main terminates, without a fault, with every array of the region at what the library
    computes from the proof data and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to its end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Hand

end
-- ==== Proof.FrameKit.lean ====
/-
  The frame of the program, first part: @main around its one kernel region, and what the region's runs are stated over.

  @main is sixty host operations (the offsets' histogram, its padding to 4224 columns, the table's padding to 4224 rows,
  x flattened to [8192, 512]), then the region over a grid of 8 × 3 points, then one reshape of the region's output.
  Here: the buffers' contents when the region is entered, as the fold of the earlier operations over the launch memory;
  that neither those operations nor the later one write an argument array; the block of each window's array at a grid
  point; that an input window's staging buffer holds its block at every point; and the body's two branch conditions
  in closed form over the 24 points: the accumulator is reset where the second grid coordinate is 0 (points ≡ 0 mod 3),
  the output block is stored where it is 2 (points ≡ 2 mod 3), and the output window is idle and not written back elsewhere.
-/
import proofs.«108064_j74182675136571_1_alg».proof.Proof.Gen.KernelIdeal.Launch
import proofs.«108064_j74182675136571_1_alg».proof.Proof.Gen.KernelIdeal.Skeleton
import proofs.«108064_j74182675136571_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the host operations before it. -/
abbrev V0 (c : Dev nD) : Valuation τ sig (Elt F) := StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the earlier host operations, the region, the later one: it reduces to the region continued by the later line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The line after the region touches the region's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the region (only its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the block
    index has not moved), for any proof data whose array is the region-entry contents and whose body leaves the block
    in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (unfetched, the block
    index has not moved), for any proof data whose array is the region-entry contents and whose body leaves the block
    in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (unfetched, the block
    index has not moved), for any proof data whose array is the region-entry contents and whose body leaves the block
    in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument arrays are staged by no window (the windows stage buffers the earlier host operations wrote), so the
    frame run's post at the buffers that bypass the region, read at the three arguments, is the frame claim's. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c)⟩) h

/-! ## The body's branch conditions -/

/-- The accumulator is reset: the second grid coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 3). -/
theorem hcond0_0 : ∀ t : Fin cfg0.N, cond0_0 (grid0.coords t) ↔ t.val % 3 = 0 :=
  (by decide +kernel : ∀ t : Fin grid0.N, cond0_0 (grid0.coords t) ↔ t.val % 3 = 0)

/-- The output block is stored: the second grid coordinate is 2. -/
abbrev cond0_1 (i : grid0.Coords) : Prop := k0_cond2 i = 1#1
/-- It holds at the points ≡ 2 (mod 3). -/
theorem hcond0_1 : ∀ t : Fin cfg0.N, cond0_1 (grid0.coords t) ↔ t.val % 3 = 2 :=
  (by decide +kernel : ∀ t : Fin grid0.N, cond0_1 (grid0.coords t) ↔ t.val % 3 = 2)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the accumulator is reset the output window is idle, -/
theorem idleAt0_3_A : ∀ t : Fin cfg0.N, cond0_0 (grid0.coords t) → ¬cond0_1 (grid0.coords t) → cfg0.idle 3 (grid0.coords t) = true := by decide +kernel
/-- and not written back. -/
theorem noFlush0_3_A : ∀ t : Fin cfg0.N, cond0_0 (grid0.coords t) → ¬cond0_1 (grid0.coords t) → (cfg0.win 3).flush t = false := by decide +kernel
/-- The same at the middle points. -/
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- Where the output block is stored the output window is live. -/
theorem liveAt0_3_C : ∀ t : Fin cfg0.N, ¬cond0_0 (grid0.coords t) → cond0_1 (grid0.coords t) → cfg0.idle 3 (grid0.coords t) = false := by decide +kernel

/-! ## The memrefs the body is called with -/

/-- One staging buffer of the output window, through which its contents are stated. -/
abbrev VO0_3 : View sig .tc .vmem S1024x512 .f32 := (Memref.whole cc0_stg3_0 : Memref sig .tc .vmem S1024x512 .f32).view
abbrev ms0_0 (t : Fin cfg0.N) : Memref sig .tc .vmem S1024x1408 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1408x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0_0 : Memref sig .tc .vmem S1024x512 .f32 := Memref.whole cc0_scratch0
/-- The accumulator as a view: what it holds is stated through it. -/
abbrev VS0_0 : View sig .tc .vmem S1024x512 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.RunA.lean ====
/-
  The kernel body run once at a grid point where the accumulator is reset (second grid coordinate 0) and the output block
  is not stored: on whole staging buffers holding the three input blocks, the output's buffer at any contents handed back
  untouched and the accumulator at any contents, the body runs to its end without a fault, leaving the inputs as they were
  and the accumulator with the stores' pieces written (zeros, then zeros plus the product of the two blocks).
-/
import proofs.«108064_j74182675136571_1_alg».proof.Proof.FrameKit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the stores leave (last first), with the body's triple at such a point. -/
noncomputable def kernelRun0_A (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i)
    (x0 : Vec F S1024x1408 .f32) (x1 : Vec F S1408x512 .f32) (x2 : Vec F S1024x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_residual_kernel i arg2 harg2 arg3 harg3 arg4 harg4 arg5 harg5 arg6 harg6) K } := by
  refine ⟨[], ?_, fun xi3 E K => ?run⟩
  case run =>
    simp only [cc0__matmul_residual_kernel_eq_skeleton]; unfold cc0__matmul_residual_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.RunB.lean ====
/-
  The kernel body run once at a middle grid point (second grid coordinate 1): neither reset nor output store. The
  accumulator comes in at the contents the point before left and goes out with one piece written: those contents plus
  the product of the two blocks. The output's buffer is handed back untouched.
-/
import proofs.«108064_j74182675136571_1_alg».proof.Proof.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the store leaves, with the body's triple at such a point. -/
noncomputable def kernelRun0_B (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : ¬cond0_1 i)
    (x0 : Vec F S1024x1408 .f32) (x1 : Vec F S1408x512 .f32) (x2 : Vec F S1024x512 .f32) (xs0 : Vec F S1024x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_residual_kernel i arg2 harg2 arg3 harg3 arg4 harg4 arg5 harg5 arg6 harg6) K } := by
  refine ⟨[], ?_, fun xi3 E K => ?run⟩
  case run =>
    simp only [cc0__matmul_residual_kernel_eq_skeleton]; unfold cc0__matmul_residual_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.RunC.lean ====
/-
  The kernel body run once at a last grid point of a row block (second grid coordinate 2): the accumulator, at the
  contents the point before left, gets the last product added, and the output block is stored whole: the x block plus the
  accumulator scaled. The output's buffer comes in at any contents.
-/
import proofs.«108064_j74182675136571_1_alg».proof.Proof.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the stores leave, with the body's triple at such a point. -/
noncomputable def kernelRun0_C (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x1408 .f32) (x1 : Vec F S1408x512 .f32) (x2 : Vec F S1024x512 .f32) (xs0 : Vec F S1024x512 .f32) :
    Σ' (L3 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_residual_kernel i arg2 harg2 arg3 harg3 arg4 harg4 arg5 harg5 arg6 harg6) K } := by
  refine ⟨?_, ?_, fun E K => ?run⟩
  case run =>
    simp only [cc0__matmul_residual_kernel_eq_skeleton]; unfold cc0__matmul_residual_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.Frame.lean ====
/-
  The frame of the program, last part: what the accumulator and the output's staging buffer hold after every grid point,
  the region's proof data, the body's obligation at every point, the run of @main, and the frame claim.

  The 24 points run row block by row block, three points each.  At the first the accumulator is reset and holds the first
  product; at the second it holds the first two; at the third it holds all three and the output block x + acc · 2^-11 is
  stored and written back.  The accumulator's contents after a point are defined by recursion on the point, each case
  taking what the point before left; the region's invariant carries the accumulator at those contents.
-/
import proofs.«108064_j74182675136571_1_alg».proof.Proof.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a point of this kind nothing is stored into the output's buffer: no pieces (a placeholder nothing consults, the
    window being neither written back nor read at the next point). -/
def out0_A_3 (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i)
    (x0 : Vec F S1024x1408 .f32) (x1 : Vec F S1408x512 .f32) (x2 : Vec F S1024x512 .f32) : Vec F S1024x512 .f32 :=
  VO0_3.read (Elt F) (VO0_3.writes (Elt F) VO0_3.junk (kernelRun0_A c i arg2 harg2 arg3 harg3 arg4 harg4 arg5 harg5 arg6 harg6 hc0 hc1 x0 x1 x2).1)

/-- The stores into the accumulator at such a point cover it. -/
theorem scover0_A_0 (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i)
    (x0 : Vec F S1024x1408 .f32) (x1 : Vec F S1408x512 .f32) (x2 : Vec F S1024x512 .f32) (y : S1024x512.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x512.size (by sl_kernel_rfl) y

/-- What such a point leaves in the accumulator: its pieces read back. -/
def sout0_A_0 (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i)
    (x0 : Vec F S1024x1408 .f32) (x1 : Vec F S1408x512 .f32) (x2 : Vec F S1024x512 .f32) : Vec F S1024x512 .f32 :=
  VS0_0.read (Elt F) (VS0_0.writes (Elt F) VS0_0.junk (kernelRun0_A c i arg2 harg2 arg3 harg3 arg4 harg4 arg5 harg5 arg6 harg6 hc0 hc1 x0 x1 x2).2.1)

/-- At a point of this kind nothing is stored into the output's buffer: no pieces (a placeholder nothing consults, the
    window being neither written back nor read at the next point). -/
def out0_B_3 (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : ¬cond0_1 i)
    (x0 : Vec F S1024x1408 .f32) (x1 : Vec F S1408x512 .f32) (x2 : Vec F S1024x512 .f32) (xs0 : Vec F S1024x512 .f32) : Vec F S1024x512 .f32 :=
  VO0_3.read (Elt F) (VO0_3.writes (Elt F) VO0_3.junk (kernelRun0_B c i arg2 harg2 arg3 harg3 arg4 harg4 arg5 harg5 arg6 harg6 hc0 hc1 x0 x1 x2 xs0).1)

/-- The stores into the accumulator at such a point cover it. -/
theorem scover0_B_0 (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : ¬cond0_1 i)
    (x0 : Vec F S1024x1408 .f32) (x1 : Vec F S1408x512 .f32) (x2 : Vec F S1024x512 .f32) (xs0 : Vec F S1024x512 .f32) (y : S1024x512.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1024x512.size (by sl_kernel_rfl) y

/-- What such a point leaves in the accumulator: its pieces read back. -/
def sout0_B_0 (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : ¬cond0_1 i)
    (x0 : Vec F S1024x1408 .f32) (x1 : Vec F S1408x512 .f32) (x2 : Vec F S1024x512 .f32) (xs0 : Vec F S1024x512 .f32) : Vec F S1024x512 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- At a storing point the one store into the output's buffer covers its block. -/
theorem cover0_C_3 (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x1408 .f32) (x1 : Vec F S1408x512 .f32) (x2 : Vec F S1024x512 .f32) (xs0 : Vec F S1024x512 .f32) (y : S1024x512.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1024x512.size (by sl_kernel_rfl) y

/-- What such a point leaves in the output's staging buffer: its pieces read back. -/
def out0_C_3 (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x1408 .f32) (x1 : Vec F S1408x512 .f32) (x2 : Vec F S1024x512 .f32) (xs0 : Vec F S1024x512 .f32) : Vec F S1024x512 .f32 :=
  VO0_3.read (Elt F) (VO0_3.writes (Elt F) VO0_3.junk (kernelRun0_C c i arg2 harg2 arg3 harg3 arg4 harg4 arg5 harg5 arg6 harg6 hc0 hc1 x0 x1 x2 xs0).1)

/-- The stores into the accumulator at such a point cover it. -/
theorem scover0_C_0 (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x1408 .f32) (x1 : Vec F S1408x512 .f32) (x2 : Vec F S1024x512 .f32) (xs0 : Vec F S1024x512 .f32) (y : S1024x512.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x512.size (by sl_kernel_rfl) y

/-- What such a point leaves in the accumulator: its pieces read back. -/
def sout0_C_0 (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x1408 .f32) (x1 : Vec F S1408x512 .f32) (x2 : Vec F S1024x512 .f32) (xs0 : Vec F S1024x512 .f32) : Vec F S1024x512 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the buffers hold after each point -/

/-- After the body at position `n`: (the output's staging buffer, the accumulator). The case is selected by the position
    modulo 3; a middle or last point takes the accumulator the point before left. -/
def outsAt0 (c : Dev nD) : (n : ℕ) → n < cfg0.N → Vec F S1024x512 .f32 × Vec F S1024x512 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 3 = 0 then
      if h1 : (n + 1) % 3 = 2 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 3 = 2 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- At a resetting point. -/
theorem outsAt0_A (c : Dev nD) (t : Fin cfg0.N) (h0 : t.val % 3 = 0) (h1 : ¬t.val % 3 = 2) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- At a middle point: over what the point before left. -/
theorem outsAt0_B (c : Dev nD) (t : Fin cfg0.N) (h0 : ¬t.val % 3 = 0) (h1 : ¬t.val % 3 = 2) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a storing point: over what the point before left. -/
theorem outsAt0_C (c : Dev nD) (t : Fin cfg0.N) (h0 : ¬t.val % 3 = 0) (h1 : t.val % 3 = 2) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at the start the accumulator at anything; afterwards at what the point
    before left; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The region's proof data -/

/-- The arrays as the region finds them; after the body each input's buffer at its block and the output's at `outsAt0`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body's obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the position modulo 3 says which case the point is in;
    the invariant hands the body the accumulator at what the point before left (at anything at the very first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 24 := lt_of_lt_of_eq t.isLt (show cfg0.N = 24 from N_0)
  by_cases h0 : t.val % 3 = 0
  · by_cases h1 : t.val % 3 = 2
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 3 = 2
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [outsAt0_C m c t h0 h1]
      unfold out0_C_3 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 24 := N_0; omega)

/-! ## The run and the frame -/

set_option backward.isDefEq.respectTransparency.types false in
/-- Every weakly fair execution of @main terminates, without a fault, with every array of the region at what the library
    computes from the proof data and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to its end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Hand

end
-- ==== Proof.Pieces.lean ====
/-
  What the stores of one grid point leave, as the body's arithmetic of the blocks it loaded.

  At a resetting point the accumulator ends at  0 + A·B  (the zero block is stored, read back, and the product of the
  point's two blocks added); at a middle and at a storing point it ends at  acc + A·B  of the contents acc it came in
  with; and at a storing point the output's staging buffer ends at  x + (acc + A·B) · 2^-11 , the accumulator being read
  back after its own store.  Each statement holds at every float instance: it only says which pure term was stored.
-/
import proofs.«108064_j74182675136571_1_alg».proof.Proof.Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- A resetting point leaves the accumulator at the product added to the zero block. -/
theorem sout_A (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i) (x0 : Vec F S1024x1408 .f32) (x1 : Vec F S1408x512 .f32) (x2 : Vec F S1024x512 .f32) :
    sout0_A_0 c i arg2 harg2 arg3 harg3 arg4 harg4 arg5 harg5 arg6 harg6 hc0 hc1 x0 x1 x2 = k0_pay2 x0 x1 k0_pay1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x512) hz, View.readCov_unit_zero (S := S1024x512) _ hz]
  simp only [View.readAt_eq_ld, harg2.read_unread, harg3.read_unread, harg4.read_unread, harg6.read_unread,
    View.ld_unit_zero (S := S1024x1408) hz, View.ld_unit_zero (S := S1408x512) hz, View.ld_unit_zero (S := S1024x512) hz]

/-- A middle point leaves the accumulator at what it came in with plus the product. -/
theorem sout_B (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : ¬cond0_1 i) (x0 : Vec F S1024x1408 .f32) (x1 : Vec F S1408x512 .f32) (x2 : Vec F S1024x512 .f32) (xs0 : Vec F S1024x512 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz]
  simp only [View.readAt_eq_ld, harg2.read_unread, harg3.read_unread, harg4.read_unread, harg6.read_unread,
    View.ld_unit_zero (S := S1024x1408) hz, View.ld_unit_zero (S := S1408x512) hz, View.ld_unit_zero (S := S1024x512) hz]

/-- So does a storing point. -/
theorem sout_C (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i) (x0 : Vec F S1024x1408 .f32) (x1 : Vec F S1408x512 .f32) (x2 : Vec F S1024x512 .f32) (xs0 : Vec F S1024x512 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.ld_unit_zero (S := S1024x1408) hz, View.ld_unit_zero (S := S1408x512) hz, View.ld_unit_zero (S := S1024x512) hz]

/-- A storing point leaves in the output's buffer the x block plus the new accumulator scaled. -/
theorem out_C (c : Dev nD) (i : grid0.Coords) (arg2 : Memref sig .tc .vmem S1024x1408 .f32) (harg2 : arg2.IsWhole) (arg3 : Memref sig .tc .vmem S1408x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i) (x0 : Vec F S1024x1408 .f32) (x1 : Vec F S1408x512 .f32) (x2 : Vec F S1024x512 .f32) (xs0 : Vec F S1024x512 .f32) :
    out0_C_3 c i arg2 harg2 arg3 harg3 arg4 harg4 arg5 harg5 arg6 harg6 hc0 hc1 x0 x1 x2 xs0 = k0_pay3 x2 (k0_pay2 x0 x1 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S1024x512) _ hz]
  simp only [View.readAt_eq_ld, harg2.read_unread, harg3.read_unread, harg4.read_unread, harg6.read_unread,
    View.ld_unit_zero (S := S1024x1408) hz, View.ld_unit_zero (S := S1408x512) hz, View.ld_unit_zero (S := S1024x512) hz]

end Cert.KernelIdeal.Hand

end
-- ==== Proof.Stored.lean ====
/-
  What a storing grid point writes back, as the body's arithmetic of the blocks of the three points of its row block.

  A row block is visited at three consecutive points.  The first resets the accumulator and leaves the first product in
  it, the second adds the second product, the third adds the third and stores  x + acc · 2^-11 .  Unfolding the
  point-by-point recursion three steps from a storing point gives the stored block as a closed term of the nine blocks
  involved (three of the histogram, three of the table, one of x).  Holds at every float instance.
-/
import proofs.«108064_j74182675136571_1_alg».proof.Proof.Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After a resetting point the accumulator holds the first product (added to zeros). -/
theorem acc_reset (c : Dev nD) (t : Fin cfg0.N) (h0 : t.val % 3 = 0) (h1 : ¬t.val % 3 = 2) :
    (outsAt0 m c t.val t.isLt).2 = k0_pay2 (iblk m c 0 t) (iblk m c 1 t) k0_pay1 := by
  rw [outsAt0_A m c t h0 h1]
  dsimp only
  exact sout_A (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- After a middle point it holds what the point before left plus the point's product. -/
theorem acc_middle (c : Dev nD) (t : Fin cfg0.N) (h0 : ¬t.val % 3 = 0) (h1 : ¬t.val % 3 = 2) :
    (outsAt0 m c t.val t.isLt).2 = k0_pay2 (iblk m c 0 t) (iblk m c 1 t) (outsAt0 m c (t.val - 1) (Nat.lt_of_le_of_lt (Nat.sub_le _ _) t.isLt)).2 := by
  rw [outsAt0_B m c t h0 h1]
  dsimp only
  exact sout_B (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- A storing point leaves in the output's buffer the x block plus the final accumulator scaled. -/
theorem out_store (c : Dev nD) (t : Fin cfg0.N) (h0 : ¬t.val % 3 = 0) (h1 : t.val % 3 = 2) :
    (outsAt0 m c t.val t.isLt).1
      = k0_pay3 (iblk m c 2 t) (k0_pay2 (iblk m c 0 t) (iblk m c 1 t) (outsAt0 m c (t.val - 1) (Nat.lt_of_le_of_lt (Nat.sub_le _ _) t.isLt)).2) := by
  rw [outsAt0_C m c t h0 h1]
  dsimp only
  exact out_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

end Cert.KernelIdeal.Hand

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.Payload.lean ====
/-
  The kernel body's arithmetic, read at one entry.

  At the ideal values (a float is an extended real, every operation exact, a change of format or a cast to the
  same shape the identity) the three values the kernel body stores are, at entry (p, q) of a 1024 × 512 block:

  * the initial accumulator: 0;
  * the accumulation step over one block of 1408 contraction positions: the old accumulator entry plus the sum
    over l < 1408 of lhs (p, l) · rhs (l, q);
  * the final step: the residual entry plus the accumulator entry times the constant whose f32 word is 0x3A000000.
-/
import proofs.«108064_j74182675136571_1_alg».proof.Proof.Gen.KernelIdeal.Skeleton
import proofs.«108064_j74182675136571_1_alg».proof.Proof.LibPlainDot
import Idealize.ShloMosaic.Lib.ValueIdx
import Idealize.ShloMosaic.Lib.Pipeline.Value
import Idealize.ShloMosaic.PureOps.Ideal.Laws

noncomputable section

open scoped BigOperators

namespace Cert.Payload

open Idealize.ShloMosaic Idealize.ShloMosaic.ValueIdx Cert.KernelIdeal Cert.KernelIdeal.Gen

variable [Cert.KernelIdeal.Facts]

/-- The initial accumulator is the zero block: a cast to the same shape of the broadcast of the f32 word 0. -/
theorem pay1_apply (p : Fin 1024) (q : Fin 512) : k0_pay1 (F := Ideal) (ix2 p q) = 0 := by
  have e : k0_pay1 (F := Ideal) = broadcast S1024x512 (Ideal.ofBits .f32 0x00000000#32) :=
    shapeCast_self _ _
  rw [e, broadcast_apply]
  exact Ideal.ofBits_zero_f32

/-- The accumulation step as a whole block: the casts to the same shape and the changes of format drop out. -/
theorem pay2_eq (v3 : Vec Ideal S1024x1408 .f32) (v6 : Vec Ideal S1408x512 .f32) (v9 : Vec Ideal S1024x512 .f32) :
    k0_pay2 v3 v6 v9
      = addf v9 (FloatOps.matmul (F := Ideal) (φ₁ := .bf16) (φ₂ := .bf16) (DotDims.plain 1024 1408 512) none v3 v6
          (constant (F := Ideal) ⟨2, ![1024, 512]⟩ .f32 0x00000000#32)) := by
  unfold k0_pay2
  simp only [shapeCast_self]
  rfl

/-- The accumulation step at entry (p, q): the old entry plus the sum over the block's 1408 contraction positions. -/
theorem pay2_apply (v3 : Vec Ideal S1024x1408 .f32) (v6 : Vec Ideal S1408x512 .f32) (v9 : Vec Ideal S1024x512 .f32)
    (p : Fin 1024) (q : Fin 512) :
    k0_pay2 v3 v6 v9 (ix2 p q) = v9 (ix2 p q) + ∑ l : Fin 1408, v3 (ix2 p l) * v6 (ix2 l q) := by
  rw [pay2_eq, addf_apply]
  exact congrArg (v9 (ix2 p q) + ·) (Cert.LibPlainDot.matmul_zero_apply (φ₁ := .bf16) (φ₂ := .bf16) none v3 v6 p q)

/-- The final step at entry (p, q): the residual entry plus the accumulator entry times the scale constant. -/
theorem pay3_apply (v18 v20 : Vec Ideal S1024x512 .f32) (p : Fin 1024) (q : Fin 512) :
    k0_pay3 v18 v20 (ix2 p q) = v18 (ix2 p q) + v20 (ix2 p q) * Ideal.ofBits .f32 0x3A000000#32 := by
  have e : k0_pay3 v18 v20 = addf v18 (mulf v20 (broadcast S1024x512 (Ideal.ofBits .f32 0x3A000000#32))) := by
    unfold k0_pay3
    simp only [shapeCast_self]
    rfl
  rw [e, addf_apply, mulf_apply, broadcast_apply]

end Cert.Payload

end
-- ==== Proof.BlockReads.lean ====
/-
  The four staged blocks of the kernel region, read at an index, and the cover of the output by its written-back blocks.

  The region runs over a grid of 8 × 3 points; point t has row-block t div 3 and contraction-block t mod 3.
  At point t
    * window 0 is the 1024 × 1408 block (t div 3, t mod 3) of an 8192 × 4224 array,
    * window 1 is the 1408 × 512 block (t mod 3, 0) of a 4224 × 512 array,
    * window 2 is the 1024 × 512 block (t div 3, 0) of an 8192 × 512 array,
    * window 3 (the output) is the 1024 × 512 block (t div 3, 0) of an 8192 × 512 array.
  Entry (p, q) of block (bi, bj) of sizes (m, n) is entry (m · bi + p, n · bj + q) of the array: a block's
  coordinate is its block index times the block size plus the coordinate inside the block. The block indices above
  hold at each of the 24 points, and each read is that identity of offsets, whatever the contents of the array.

  The output is written back at the points t with t mod 3 = 2. Row r of the output lies in row-block r div 1024,
  which the point 3 · (r div 1024) + 2 writes back; so every index of the output is in some written-back block.
-/
import proofs.«108064_j74182675136571_1_alg».proof.Proof.Gen.KernelIdeal.Launch
import proofs.«108064_j74182675136571_1_alg».proof.Proof.Gen.KernelIdeal.Points
import Idealize.ShloMosaic.Lib.Pipeline.Value
import Idealize.ShloMosaic.Lib.ValueIdx

noncomputable section

namespace Cert.BlockReads

open Idealize.ShloMosaic Idealize.ShloMosaic.TcCoe Idealize.ShloMosaic.ValueIdx Idealize.SL.Sem
open Cert.KernelIdeal Cert.KernelIdeal.Gen

variable {F : FTy → Type} [FloatOps F]

/-- The grid has 24 points. -/
theorem t_lt (t : Fin cfg0.N) : t.val < 24 := lt_of_lt_of_eq t.isLt N_0

/-- Window 0's block index at point t is (t div 3, t mod 3). -/
theorem idx0 : ∀ t : Fin cfg0.N, win0_0.index t 0 = t.val / 3 ∧ win0_0.index t 1 = t.val % 3 :=
  (by decide +kernel : ∀ t : Fin grid0.N, _)

/-- Window 1's block index at point t is (t mod 3, 0). -/
theorem idx1 : ∀ t : Fin cfg0.N, win0_1.index t 0 = t.val % 3 ∧ win0_1.index t 1 = 0 :=
  (by decide +kernel : ∀ t : Fin grid0.N, _)

/-- Window 2's block index at point t is (t div 3, 0). -/
theorem idx2 : ∀ t : Fin cfg0.N, win0_2.index t 0 = t.val / 3 ∧ win0_2.index t 1 = 0 :=
  (by decide +kernel : ∀ t : Fin grid0.N, _)

/-- Window 3's block index at point t is (t div 3, 0). -/
theorem idx3 : ∀ t : Fin cfg0.N, win0_3.index t 0 = t.val / 3 ∧ win0_3.index t 1 = 0 :=
  (by decide +kernel : ∀ t : Fin grid0.N, _)

/-- Window 0 at point t, read at (p, l): entry (1024 · (t div 3) + p, 1408 · (t mod 3) + l) of the array. -/
theorem blk0_read (c : Dev nD) (A : Buf (Elt F) ((c : Thread nD τ).loc main_v37)) (t : Fin cfg0.N)
    (p : Fin 1024) (l : Fin 1408) :
    (((cfg0.win 0).blk t).view.read (Elt F) A : Vec F S1024x1408 .f32) (ix2 p l)
      = A (ix2 ⟨1024 * (t.val / 3) + p.val, by have := t_lt t; omega⟩
               ⟨1408 * (t.val % 3) + l.val, by omega⟩) := by
  obtain ⟨e0, e1⟩ := idx0 t
  rw [View.read_apply]
  show A _ = A _
  refine congrArg A (funext fun a => Fin.ext ?_)
  match a with
  | ⟨0, _⟩ => show win0_0.index t 0 * 1024 + 1 * p.val = 1024 * (t.val / 3) + p.val; rw [e0]; omega
  | ⟨1, _⟩ => show win0_0.index t 1 * 1408 + 1 * l.val = 1408 * (t.val % 3) + l.val; rw [e1]; omega

/-- Window 1 at point t, read at (l, q): entry (1408 · (t mod 3) + l, q) of the array. -/
theorem blk1_read (c : Dev nD) (A : Buf (Elt F) ((c : Thread nD τ).loc main_v38)) (t : Fin cfg0.N)
    (l : Fin 1408) (q : Fin 512) :
    (((cfg0.win 1).blk t).view.read (Elt F) A : Vec F S1408x512 .f32) (ix2 l q)
      = A (ix2 ⟨1408 * (t.val % 3) + l.val, by omega⟩ q) := by
  obtain ⟨e0, e1⟩ := idx1 t
  rw [View.read_apply]
  show A _ = A _
  refine congrArg A (funext fun a => Fin.ext ?_)
  match a with
  | ⟨0, _⟩ => show win0_1.index t 0 * 1408 + 1 * l.val = 1408 * (t.val % 3) + l.val; rw [e0]; omega
  | ⟨1, _⟩ => show win0_1.index t 1 * 512 + 1 * q.val = q.val; rw [e1]; omega

/-- Window 2 at point t, read at (p, q): entry (1024 · (t div 3) + p, q) of the array. -/
theorem blk2_read (c : Dev nD) (A : Buf (Elt F) ((c : Thread nD τ).loc main_v39)) (t : Fin cfg0.N)
    (p : Fin 1024) (q : Fin 512) :
    (((cfg0.win 2).blk t).view.read (Elt F) A : Vec F S1024x512 .f32) (ix2 p q)
      = A (ix2 ⟨1024 * (t.val / 3) + p.val, by have := t_lt t; omega⟩ q) := by
  obtain ⟨e0, e1⟩ := idx2 t
  rw [View.read_apply]
  show A _ = A _
  refine congrArg A (funext fun a => Fin.ext ?_)
  match a with
  | ⟨0, _⟩ => show win0_2.index t 0 * 1024 + 1 * p.val = 1024 * (t.val / 3) + p.val; rw [e0]; omega
  | ⟨1, _⟩ => show win0_2.index t 1 * 512 + 1 * q.val = q.val; rw [e1]; omega

/-- Window 3 at point t, read at (p, q): entry (1024 · (t div 3) + p, q) of the array. -/
theorem blk3_read (c : Dev nD) (A : Buf (Elt F) ((c : Thread nD τ).loc main_v40)) (t : Fin cfg0.N)
    (p : Fin 1024) (q : Fin 512) :
    (((cfg0.win 3).blk t).view.read (Elt F) A : Vec F S1024x512 .f32) (ix2 p q)
      = A (ix2 ⟨1024 * (t.val / 3) + p.val, by have := t_lt t; omega⟩ q) := by
  obtain ⟨e0, e1⟩ := idx3 t
  rw [View.read_apply]
  show A _ = A _
  refine congrArg A (funext fun a => Fin.ext ?_)
  match a with
  | ⟨0, _⟩ => show win0_3.index t 0 * 1024 + 1 * p.val = 1024 * (t.val / 3) + p.val; rw [e0]; omega
  | ⟨1, _⟩ => show win0_3.index t 1 * 512 + 1 * q.val = q.val; rw [e1]; omega

/-- Every index of the output array lies in a block that some point writes back: row r is in row-block r div 1024,
    written back at the point 3 · (r div 1024) + 2. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : Nat) < 8192 := (i 0).isLt
  have h1 : (i 1 : Nat) < 512 := (i 1).isLt
  have hN : cfg0.N = 24 := N_0
  obtain ⟨t, ht⟩ : ∃ t : Fin cfg0.N, t.val = 3 * ((i 0 : Nat) / 1024) + 2 := ⟨⟨_, by omega⟩, rfl⟩
  obtain ⟨e0, e1⟩ := idx3 t
  refine ⟨t, (flush0_3 t).mpr (by omega), ?_⟩
  show i ∈ ((View.whole main_v40).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + 1024
    rw [e0]; omega
  | ⟨1, _⟩ =>
    show win0_3.index t 1 * 512 ≤ (i 1 : Nat) ∧ (i 1 : Nat) < win0_3.index t 1 * 512 + 512
    rw [e1]; omega

end Cert.BlockReads
-- ==== Proof.KernelSpec.lean ====
/-
  The kernel's result over the three arrays its region stages, on the extended reals.

  The region reads a [8192, 4224] matrix C (the histogram, flattened and padded), a [4224, 512] matrix T (the table,
  padded) and a [8192, 512] matrix X (x flattened), and visits each block of 1024 rows three times, once per group of
  1408 contraction positions, accumulating from zero in that order.  Row r, column q of its output is therefore

      X[r,q] + ( ((0 + Σ_{l<1408} C[r,l]·T[l,q]) + Σ_{l<1408} C[r,1408+l]·T[1408+l,q]) + Σ_{l<1408} C[r,2816+l]·T[2816+l,q] ) · 2^-11 ,

  with the additions grouped as the kernel performs them.
-/
import Idealize.ShloMosaic.PureOps.Ideal.Laws
import Idealize.ShloMosaic.Lib.ValueIdx

noncomputable section

open scoped BigOperators

namespace Cert.KernelSpec

open Idealize.ShloMosaic Idealize.ShloMosaic.ValueIdx

/-- The output at row r and column q. -/
def outAt (C : (⟨2, ![8192, 4224]⟩ : Shape).Idx → EReal) (T : (⟨2, ![4224, 512]⟩ : Shape).Idx → EReal)
    (X : (⟨2, ![8192, 512]⟩ : Shape).Idx → EReal) (r : Fin 8192) (q : Fin 512) : EReal :=
  X (ix2 r q)
    + (((0 + ∑ l : Fin 1408, C (ix2 r ⟨l.val, by omega⟩) * T (ix2 ⟨l.val, by omega⟩ q))
        + ∑ l : Fin 1408, C (ix2 r ⟨1408 + l.val, by omega⟩) * T (ix2 ⟨1408 + l.val, by omega⟩ q))
        + ∑ l : Fin 1408, C (ix2 r ⟨2816 + l.val, by omega⟩) * T (ix2 ⟨2816 + l.val, by omega⟩ q))
      * Ideal.ofBits .f32 0x3A000000#32

/-- The whole output matrix. -/
def Gout (C : (⟨2, ![8192, 4224]⟩ : Shape).Idx → EReal) (T : (⟨2, ![4224, 512]⟩ : Shape).Idx → EReal)
    (X : (⟨2, ![8192, 512]⟩ : Shape).Idx → EReal) : (⟨2, ![8192, 512]⟩ : Shape).Idx → EReal :=
  fun j => outAt C T X (j 0) (j 1)

theorem Gout_apply (C : (⟨2, ![8192, 4224]⟩ : Shape).Idx → EReal) (T : (⟨2, ![4224, 512]⟩ : Shape).Idx → EReal)
    (X : (⟨2, ![8192, 512]⟩ : Shape).Idx → EReal) (r : Fin 8192) (q : Fin 512) :
    Gout C T X (ix2 r q) = outAt C T X r q := rfl

end Cert.KernelSpec

end
-- ==== Proof.BlockValue.lean ====
/-
  The block a storing grid point writes back is the block of the kernel's formula, over any three staged matrices.

  For a point t with second grid coordinate 2, and the two points before it, the body's arithmetic of the nine blocks
  read through the windows at those points — x's block plus ((0 + C₀·T₀) + C₁·T₁) + C₂·T₂ scaled by 2^-11 — is, entry by
  entry, the block at t of the whole-matrix formula: block (i, k) of C is rows 1024·i.. and columns 1408·k.., block k of
  T is rows 1408·k.., and the three points of row block i have k = 0, 1, 2.  Stated over arbitrary contents of the three
  staged arrays, so that it is instantiated at the program's arrays only after everything else is in place.
-/
import proofs.«108064_j74182675136571_1_alg».proof.Proof.Payload
import proofs.«108064_j74182675136571_1_alg».proof.Proof.BlockReads
import proofs.«108064_j74182675136571_1_alg».proof.Proof.KernelSpec

set_option maxRecDepth 16384

noncomputable section

open scoped BigOperators

namespace Cert.BlockValue

open Idealize.ShloMosaic Idealize.ShloMosaic.TcCoe Idealize.ShloMosaic.ValueIdx Idealize.SL.Sem
open Cert.KernelIdeal Cert.KernelIdeal.Gen Cert.BlockReads Cert.Payload Cert.KernelSpec

/-- Two index pairs with equal coordinates. -/
theorem ix2_congr {n0 n1 : Nat} {a a' : Fin n0} {b b' : Fin n1} (ha : a.val = a'.val) (hb : b.val = b'.val) :
    ix2 a b = ix2 a' b' := by
  obtain rfl := Fin.ext ha; obtain rfl := Fin.ext hb; rfl

/-- The same with the coordinates given as numbers. -/
theorem ix2_mk_congr {n0 n1 : Nat} {a a' b b' : ℕ} (ha : a < n0) (ha' : a' < n0) (hb : b < n1) (hb' : b' < n1)
    (ea : a = a') (eb : b = b') : ix2 (⟨a, ha⟩ : Fin n0) (⟨b, hb⟩ : Fin n1) = ix2 ⟨a', ha'⟩ ⟨b', hb'⟩ := by
  subst ea; subst eb; rfl

theorem block_value (c : Dev nD) (A37 : Buf (Elt Ideal) ((c : Thread nD τ).loc main_v37))
    (A38 : Buf (Elt Ideal) ((c : Thread nD τ).loc main_v38)) (A39 : Buf (Elt Ideal) ((c : Thread nD τ).loc main_v39))
    (t t1 t0 : Fin cfg0.N) (h2 : t.val % 3 = 2) (h1 : t1.val = t.val - 1) (h0 : t0.val = t.val - 1 - 1) :
    (k0_pay3 (((cfg0.win 2).blk t).view.read (Elt Ideal) A39 : Vec Ideal S1024x512 .f32)
        (k0_pay2 (((cfg0.win 0).blk t).view.read (Elt Ideal) A37 : Vec Ideal S1024x1408 .f32)
          (((cfg0.win 1).blk t).view.read (Elt Ideal) A38 : Vec Ideal S1408x512 .f32)
          (k0_pay2 (((cfg0.win 0).blk t1).view.read (Elt Ideal) A37 : Vec Ideal S1024x1408 .f32)
            (((cfg0.win 1).blk t1).view.read (Elt Ideal) A38 : Vec Ideal S1408x512 .f32)
            (k0_pay2 (((cfg0.win 0).blk t0).view.read (Elt Ideal) A37 : Vec Ideal S1024x1408 .f32)
              (((cfg0.win 1).blk t0).view.read (Elt Ideal) A38 : Vec Ideal S1408x512 .f32) (k0_pay1 (F := Ideal)))))  : Vec Ideal S1024x512 .f32)
      = (((cfg0.win 3).blk t).view.read (Elt Ideal)
          (Gout A37 A38 A39 : Buf (Elt Ideal) ((c : Thread nD τ).loc main_v40)) : Vec Ideal S1024x512 .f32) := by
  have hN : t.val < 24 := t_lt t
  funext j
  obtain ⟨p, q, rfl⟩ : ∃ (p : Fin 1024) (q : Fin 512), j = ix2 p q := ⟨j 0, j 1, eq_ix2 j⟩
  refine Eq.trans ?_ (blk3_read (F := Ideal) c (Gout A37 A38 A39 : Buf (Elt Ideal) ((c : Thread nD τ).loc main_v40)) t p q).symm
  rw [Gout_apply]
  unfold outAt
  rw [pay3_apply, pay2_apply, pay2_apply, pay2_apply, pay1_apply]
  rw [blk2_read (F := Ideal) c A39 t p q]
  refine congrArg₂ (· + ·) rfl (congrArg (· * _) (congrArg₂ (· + ·) (congrArg₂ (· + ·) (congrArg (0 + ·)
    (Finset.sum_congr rfl fun l _ => ?_)) (Finset.sum_congr rfl fun l _ => ?_)) (Finset.sum_congr rfl fun l _ => ?_)))
  · exact (congrArg₂ (fun (a b : EReal) => a * b) (blk0_read (F := Ideal) c A37 t0 p l) (blk1_read (F := Ideal) c A38 t0 l q)).trans
      (congrArg₂ (fun (a b : EReal) => a * b)
        (congrArg A37 (ix2_mk_congr _ _ _ _ (show 1024 * (t0.val / 3) + p.val = 1024 * (t.val / 3) + p.val by omega)
          (show 1408 * (t0.val % 3) + l.val = l.val by omega)))
        (congrArg A38 (congrArg (fun a => ix2 a q) (Fin.ext (show 1408 * (t0.val % 3) + l.val = l.val by omega)))))
  · exact (congrArg₂ (fun (a b : EReal) => a * b) (blk0_read (F := Ideal) c A37 t1 p l) (blk1_read (F := Ideal) c A38 t1 l q)).trans
      (congrArg₂ (fun (a b : EReal) => a * b)
        (congrArg A37 (ix2_mk_congr _ _ _ _ (show 1024 * (t1.val / 3) + p.val = 1024 * (t.val / 3) + p.val by omega)
          (show 1408 * (t1.val % 3) + l.val = 1408 + l.val by omega)))
        (congrArg A38 (congrArg (fun a => ix2 a q) (Fin.ext (show 1408 * (t1.val % 3) + l.val = 1408 + l.val by omega)))))
  · exact (congrArg₂ (fun (a b : EReal) => a * b) (blk0_read (F := Ideal) c A37 t p l) (blk1_read (F := Ideal) c A38 t l q)).trans
      (congrArg₂ (fun (a b : EReal) => a * b)
        (congrArg A37 (ix2_mk_congr _ _ _ _ (show 1024 * (t.val / 3) + p.val = 1024 * (t.val / 3) + p.val by omega)
          (show 1408 * (t.val % 3) + l.val = 2816 + l.val by omega)))
        (congrArg A38 (congrArg (fun a => ix2 a q) (Fin.ext (show 1408 * (t.val % 3) + l.val = 2816 + l.val by omega)))))

end Cert.BlockValue

end
-- ==== Proof.KernelFinal.lean ====
/-
  The region's output array after the run, and the program's result, over the three staged arrays.

  A storing point writes back the block of the whole-matrix formula (the stored block is the body's arithmetic of the
  blocks of its row block's three points, and that arithmetic is the formula's block); the eight storing points' blocks
  tile the [8192, 512] output; so the output array ends holding the formula of the three staged arrays as the region
  found them.  The one host operation after the region reshapes it to [4, 2048, 512]: that is the program's result.
-/
import proofs.«108064_j74182675136571_1_alg».proof.Proof.Stored
import proofs.«108064_j74182675136571_1_alg».proof.Proof.BlockValue
import Idealize.ShloMosaic.Lib.Pipeline.Value
import Idealize.ShloMosaic.Lib.StableHlo.Run

set_option maxRecDepth 16384

noncomputable section

namespace Cert.KernelIdeal.HandValue

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.KernelIdeal.Hand Cert.KernelSpec

variable (m : (ℓ : Loc nD τ sig) → Buf (Elt Ideal) ℓ) (ρ : Dev nD → PrngReg)

/-- The staged arrays as the region finds them, and the formula over them. -/
abbrev outArr (c : Dev nD) : Buf (Elt Ideal) ((c : Thread nD τ).loc main_v40) :=
  Gout (V m c main_v37) (V m c main_v38) (V m c main_v39)

/-- What a storing point writes back is its block of the formula. -/
theorem flushed_eq (c : Dev nD) (t : Fin cfg0.N) (hf : (cfg0.win 3).flush t = true) :
    (dats m 0 c).flushed 3 t = ((cfg0.win 3).blk t).view.read (Elt Ideal) (outArr m c) := by
  have h2 : t.val % 3 = 2 := (flush0_3 t).mp hf
  have hN : t.val < 24 := lt_of_lt_of_eq t.isLt (show cfg0.N = 24 from N_0)
  show (cfg0.win 3).cut (grid0.coords t) ((dats m 0 c).after 3 t) = _
  rw [after0_3, out_store m c t (by omega) h2]
  have e1 := acc_middle m c ⟨t.val - 1, Nat.lt_of_le_of_lt (Nat.sub_le _ _) t.isLt⟩ (by dsimp only; omega) (by dsimp only; omega)
  dsimp only at e1
  rw [e1]
  have e0 := acc_reset m c ⟨t.val - 1 - 1, Nat.lt_of_le_of_lt (Nat.sub_le _ _) (Nat.lt_of_le_of_lt (Nat.sub_le _ _) t.isLt)⟩ (by dsimp only; omega) (by dsimp only; omega)
  dsimp only at e0
  rw [e0]
  unfold iblk
  exact Cert.BlockValue.block_value c (V m c main_v37) (V m c main_v38) (V m c main_v39) t
    ⟨t.val - 1, Nat.lt_of_le_of_lt (Nat.sub_le _ _) t.isLt⟩
    ⟨t.val - 1 - 1, Nat.lt_of_le_of_lt (Nat.sub_le _ _) (Nat.lt_of_le_of_lt (Nat.sub_le _ _) t.isLt)⟩ h2 rfl rfl

/-- The output array after the run: the storing points' blocks tile it. -/
theorem final40 (c : Dev nD) : (dats m 0 c).arrAt 3 cfg0.N = outArr m c :=
  (dats m 0 c).arrAt_eq_of_cover 3 (outArr m c) (flushed_eq m c) (Cert.BlockReads.cover3 c)

/-- The program's result buffer after the line that follows the region: the output array reshaped. -/
theorem result41 (c : Dev nD) :
    Pipeline.afterTail₀ cfgs (dats m) 0 (V0 m) [hostOps1] c main_v41
      = fun i => shapeCast S4x2048x512 (outArr m c) shapeCasts_S8192x512_S4x2048x512 i := by
  unfold Pipeline.afterTail₀
  show StableHlo.after hostOps1 _ (Proc.devRef .tc main_v41) = _
  after_results
  have hw : Pipeline.withArrays (cfgs 0).spec c (V0 m c) (fun w => (dats m 0 c).arrAt w (cfgs 0).N) (Proc.devRef .tc main_v40) = outArr m c :=
    (Pipeline.withArrays_arr spec0 launch0.win.arr_inj c (V0 m c) (fun w => (dats m 0 c).arrAt w (cfgs 0).N) 3).trans (final40 m c)
  rw [hw]
  rfl

end Cert.KernelIdeal.HandValue

end
-- ==== Proof.Counts.lean ====
/-
  The histogram of relative offsets, as one function of the positions.

  For positions pos : [4, 2048] (32-bit integers) the host operations that both programs run build, in order:
  the offsets pos[b,i] − pos[b,j], clipped to [−2048, 2048] and shifted by 2048; the three index planes
  (the batch index b, the row index i, the shifted offset — each wrapped once if negative) stacked along a last
  axis of extent 3; and the scatter-add of the constant one at every (b, i, j) into a zero array of shape
  [4, 2048, 4097].  Entry (b, i, v) of the result counts the partners j whose shifted offset is v.
  The operations are listed here once, in the order and with the operands the programs print.
-/
import proofs.«108064_j74182675136571_1_alg».proof.KernelIdeal

noncomputable section

namespace Cert.Counts

open Idealize.ShloMosaic Cert.KernelIdeal Cert.KernelIdeal.Facts₀

variable {F : FTy → Type} [FloatOps F] [Cert.KernelIdeal.Facts]

/-- The clipped, shifted offsets pos[b,i] − pos[b,j] + 2048, in [0, 4096]. -/
def shifted (p : (⟨S4x2048, .i32⟩ : BufTy).Contents (Elt F)) : (⟨S4x2048x2048, .i32⟩ : BufTy).Contents (Elt F) :=
  let v0 : (⟨S4x2048x1, .i32⟩ : BufTy).Contents (Elt F) := broadcastInDim S4x2048x1 ![0, 1] bcast_S4x2048_S4x2048x1_0_1 p
  let v1 : (⟨S4x1x2048, .i32⟩ : BufTy).Contents (Elt F) := broadcastInDim S4x1x2048 ![0, 2] bcast_S4x2048_S4x1x2048_0_2 p
  let v2 : (⟨S4x2048x2048, .i32⟩ : BufTy).Contents (Elt F) := broadcastInDim S4x2048x2048 ![0, 1, 2] bcast_S4x2048x1_S4x2048x2048_0_1_2 v0
  let v3 : (⟨S4x2048x2048, .i32⟩ : BufTy).Contents (Elt F) := broadcastInDim S4x2048x2048 ![0, 1, 2] bcast_S4x1x2048_S4x2048x2048_0_1_2 v1
  let v4 : (⟨S4x2048x2048, .i32⟩ : BufTy).Contents (Elt F) := subi v2 v3
  let lo : (⟨S_, .i32⟩ : BufTy).Contents (Elt F) := constantI S_ 32 4294965248#32
  let hi : (⟨S_, .i32⟩ : BufTy).Contents (Elt F) := constantI S_ 32 2048#32
  let w1 : (⟨S4x2048x2048, .i32⟩ : BufTy).Contents (Elt F) := broadcastInDim S4x2048x2048 ![] bcast_S_S4x2048x2048 (id lo)
  let w2 : (⟨S4x2048x2048, .i32⟩ : BufTy).Contents (Elt F) := maxsi w1 v4
  let w4 : (⟨S4x2048x2048, .i32⟩ : BufTy).Contents (Elt F) := broadcastInDim S4x2048x2048 ![] bcast_S_S4x2048x2048 (id hi)
  let v5 : (⟨S4x2048x2048, .i32⟩ : BufTy).Contents (Elt F) := minsi w4 w2
  let v6 : (⟨S4x2048x2048, .i32⟩ : BufTy).Contents (Elt F) := broadcastInDim S4x2048x2048 ![] bcast_S_S4x2048x2048 (constantI S_ 32 2048#32)
  addi v5 v6

/-- The three index planes stacked along a last axis: (b, i, shifted offset), each wrapped once if negative. -/
def indices (p : (⟨S4x2048, .i32⟩ : BufTy).Contents (Elt F)) : (⟨S4x2048x2048x3, .i32⟩ : BufTy).Contents (Elt F) :=
  let v7 : (⟨S4x2048x2048, .i32⟩ : BufTy).Contents (Elt F) := shifted p
  let v9 : (⟨S4x1x1, .i32⟩ : BufTy).Contents (Elt F) := broadcastInDim S4x1x1 ![0] bcast_S4_S4x1x1_0 (iotaInDim S4 32 0)
  let v11 : (⟨S1x2048x1, .i32⟩ : BufTy).Contents (Elt F) := broadcastInDim S1x2048x1 ![1] bcast_S2048_S1x2048x1_1 (iotaInDim S2048 32 0)
  let v13 : (⟨S4x1x1, .i32⟩ : BufTy).Contents (Elt F) := broadcastInDim S4x1x1 ![] bcast_S_S4x1x1 (constantI S_ 32 0#32)
  let v14 : (⟨S4x1x1, .i1⟩ : BufTy).Contents (Elt F) := cmpi .slt v9 v13
  let v15 : (⟨S4x1x1, .i32⟩ : BufTy).Contents (Elt F) := broadcastInDim S4x1x1 ![] bcast_S_S4x1x1 (constantI S_ 32 4#32)
  let v16 : (⟨S4x1x1, .i32⟩ : BufTy).Contents (Elt F) := addi v9 v15
  let v17 : (⟨S4x1x1, .i32⟩ : BufTy).Contents (Elt F) := select v14 v16 v9
  let v18 : (⟨S1x2048x1, .i32⟩ : BufTy).Contents (Elt F) := broadcastInDim S1x2048x1 ![] bcast_S_S1x2048x1 (constantI S_ 32 0#32)
  let v19 : (⟨S1x2048x1, .i1⟩ : BufTy).Contents (Elt F) := cmpi .slt v11 v18
  let v20 : (⟨S1x2048x1, .i32⟩ : BufTy).Contents (Elt F) := broadcastInDim S1x2048x1 ![] bcast_S_S1x2048x1 (constantI S_ 32 2048#32)
  let v21 : (⟨S1x2048x1, .i32⟩ : BufTy).Contents (Elt F) := addi v11 v20
  let v22 : (⟨S1x2048x1, .i32⟩ : BufTy).Contents (Elt F) := select v19 v21 v11
  let v23 : (⟨S4x2048x2048, .i32⟩ : BufTy).Contents (Elt F) := broadcastInDim S4x2048x2048 ![] bcast_S_S4x2048x2048 (constantI S_ 32 0#32)
  let v24 : (⟨S4x2048x2048, .i1⟩ : BufTy).Contents (Elt F) := cmpi .slt v7 v23
  let v25 : (⟨S4x2048x2048, .i32⟩ : BufTy).Contents (Elt F) := broadcastInDim S4x2048x2048 ![] bcast_S_S4x2048x2048 (constantI S_ 32 4097#32)
  let v26 : (⟨S4x2048x2048, .i32⟩ : BufTy).Contents (Elt F) := addi v7 v25
  let v27 : (⟨S4x2048x2048, .i32⟩ : BufTy).Contents (Elt F) := select v24 v26 v7
  let v28 : (⟨S4x2048x2048, .i32⟩ : BufTy).Contents (Elt F) := broadcastInDim S4x2048x2048 ![0, 1, 2] bcast_S4x1x1_S4x2048x2048_0_1_2 v17
  let v29 : (⟨S4x2048x2048, .i32⟩ : BufTy).Contents (Elt F) := broadcastInDim S4x2048x2048 ![0, 1, 2] bcast_S1x2048x1_S4x2048x2048_0_1_2 v22
  let v30 : (⟨S4x2048x2048x1, .i32⟩ : BufTy).Contents (Elt F) := broadcastInDim S4x2048x2048x1 ![0, 1, 2] bcast_S4x2048x2048_S4x2048x2048x1_0_1_2 v28
  let v31 : (⟨S4x2048x2048x1, .i32⟩ : BufTy).Contents (Elt F) := broadcastInDim S4x2048x2048x1 ![0, 1, 2] bcast_S4x2048x2048_S4x2048x2048x1_0_1_2 v29
  let v32 : (⟨S4x2048x2048x1, .i32⟩ : BufTy).Contents (Elt F) := broadcastInDim S4x2048x2048x1 ![0, 1, 2] bcast_S4x2048x2048_S4x2048x2048x1_0_1_2 v27
  concatenate S4x2048x2048x3 3 [⟨S4x2048x2048x1, v30⟩, ⟨S4x2048x2048x1, v31⟩, ⟨S4x2048x2048x1, v32⟩] concatenates_S4x2048x2048x1_S4x2048x2048x1_S4x2048x2048x1_S4x2048x2048x3_d3

/-- The histogram: ones added at the stacked indices into zeros. -/
def cntOf (p : (⟨S4x2048, .i32⟩ : BufTy).Contents (Elt F)) : (⟨S4x2048x4097, .f32⟩ : BufTy).Contents (Elt F) :=
  Host.scatterAdd scatter_S4x2048x4097_S4x2048x2048x3_S4x2048x2048_n_012_012_3
    (broadcastInDim S4x2048x4097 ![] bcast_S_S4x2048x4097 (constant S_ .f32 0x00000000#32))
    (indices p)
    (broadcastInDim S4x2048x2048 ![] bcast_S_S4x2048x2048 (constant S_ .f32 0x3F800000#32))

end Cert.Counts

end
-- ==== Proof.LibNary3.lean ====
/-
  A three-operand operation over a literal family of references (a concatenation of three arrays), read back from a
  straight line of host operations: its result with each operand's contents at that operand's own reference, so
  that the operands' contents can be read back in turn. The library states the same for four operands.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- The result of a three-operand operation at its own result reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference left out of the rewrite index, for one simplification pass over a whole line. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

end
-- ==== Proof.Prefix.lean ====
/-
  What the kernel region finds in the three arrays it stages, as functions of the program's arguments.

  Before the region, @main runs sixty host operations on each core: fifty-two that build the histogram of clipped,
  shifted relative offsets of the positions (argument 2) — the offsets, the three index planes stacked along a last
  axis, the scatter-add of ones into zeros —, then the histogram flattened to [8192, 4097] and padded with zeros to
  4224 columns, the table (argument 1) padded with zeros to 4224 rows, and x (argument 0) flattened to [8192, 512].
  Read as a composition of array functions, with no operation evaluated at any index:

  * after the first fifty-two operations the histogram's buffer holds the histogram function of the launch
    contents of argument 2 (the composition is, operation for operation, that function's definition);
  * the eight later operations do not write that buffer nor the arguments, and write the three staged arrays as
    the padded flattened histogram, the padded table and the flattened x.
-/
import proofs.«108064_j74182675136571_1_alg».proof.Proof.FrameKit
import proofs.«108064_j74182675136571_1_alg».proof.Proof.Counts
import proofs.«108064_j74182675136571_1_alg».proof.Proof.LibNary3
import Idealize.ShloMosaic.Lib.StableHlo.Run

set_option maxRecDepth 16384

noncomputable section

namespace Cert.KernelIdeal.HandPrefix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Hand

variable {F : FTy → Type} [FloatOps F]

variable (m : (ℓ : Loc nD τ sig) → Buf (Elt F) ℓ) (c : Dev nD)

/-! ## The sixty operations in two parts -/

/-- A line run up to a position, then from it. -/
theorem after_take_drop {τ' : Topo} {sig' : RefSig} {Val : EltTy → Type} (n : ℕ) (ops : List (HloOp τ' sig' Val)) (W : Valuation τ' sig' Val) :
    StableHlo.after ops W = StableHlo.after (ops.drop n) (StableHlo.after (ops.take n) W) := by
  rw [← StableHlo.after_append, List.take_append_drop]

/-- The contents once the histogram is written: the first two lines and the third up to the scatter-add. -/
def A : Valuation τ sig (Elt F) :=
  StableHlo.after (List.take 39 hostOps0_2) (StableHlo.after hostOps0_1 (StableHlo.after hostOps0 (fun b => m (c, b))))

/-- The region-entry contents as the operations after the histogram run over A. -/
theorem V0_eq : V0 m c = StableHlo.after hostOps0_6 (StableHlo.after hostOps0_5 (StableHlo.after hostOps0_4 (StableHlo.after hostOps0_3
    (StableHlo.after (List.drop 39 hostOps0_2) (A m c))))) := by
  show StableHlo.after (List.flatten [hostOps0, hostOps0_1, hostOps0_2, hostOps0_3, hostOps0_4, hostOps0_5, hostOps0_6]) _ = _
  simp only [List.flatten_cons, List.flatten_nil, List.append_nil, StableHlo.after_append]
  rw [after_take_drop 39 hostOps0_2]
  rfl

/-- The eight operations after the histogram, read at any buffer over any contents Z. -/
theorem tail_eq (Z : Valuation τ sig (Elt F)) :
    StableHlo.after hostOps0_6 (StableHlo.after hostOps0_5 (StableHlo.after hostOps0_4 (StableHlo.after hostOps0_3
      (StableHlo.after (List.drop 39 hostOps0_2) Z))))
    = StableHlo.after
      [ StableHlo.reshape main_v35 main_v36 rfl shapeCasts_S4x2048x4097_S8192x4097,
        StableHlo.nullary main_c_9 (constantI S_ 32 0#32),
        StableHlo.TRef.unary (.of main_c_9 : StableHlo.TRef sig ⟨S_, .i32⟩) (.of main_call1_v0 : StableHlo.TRef sig ⟨S_, .f32⟩) (sitofp .f32),
        StableHlo.TRef.binary (.of main_v36 : StableHlo.TRef sig ⟨S8192x4097, .f32⟩) (.of main_call1_v0 : StableHlo.TRef sig ⟨S_, .f32⟩) (.of main_v37 : StableHlo.TRef sig ⟨S8192x4224, .f32⟩) (fun x v => pad S8192x4224 ![0, 0] ![0, 127] ![0, 0] x v pads_S8192x4097_S8192x4224_000_01270 h_S_),
        StableHlo.nullary main_c_10 (constantI S_ 32 0#32),
        StableHlo.TRef.unary (.of main_c_10 : StableHlo.TRef sig ⟨S_, .i32⟩) (.of main_call2_v0 : StableHlo.TRef sig ⟨S_, .f32⟩) (sitofp .f32),
        StableHlo.TRef.binary (.of main_arg1 : StableHlo.TRef sig ⟨S4097x512, .f32⟩) (.of main_call2_v0 : StableHlo.TRef sig ⟨S_, .f32⟩) (.of main_v38 : StableHlo.TRef sig ⟨S4224x512, .f32⟩) (fun x v => pad S4224x512 ![0, 0] ![127, 0] ![0, 0] x v pads_S4097x512_S4224x512_01270_000 h_S_),
        StableHlo.reshape main_arg0 main_v39 rfl shapeCasts_S4x2048x512_S8192x512 ] Z := rfl

/-! ## The eight operations after the histogram -/

/-- Over any contents Z, the eight operations after the histogram leave the histogram's buffer as it is. -/
theorem tail_v35 (Z : Valuation τ sig (Elt F)) :
    StableHlo.after hostOps0_6 (StableHlo.after hostOps0_5 (StableHlo.after hostOps0_4 (StableHlo.after hostOps0_3
      (StableHlo.after (List.drop 39 hostOps0_2) Z)))) (Proc.devRef .tc main_v35) = Z (Proc.devRef .tc main_v35) := by
  rw [tail_eq]
  after_results

/-- … and argument 0, -/
theorem tail_arg0 (Z : Valuation τ sig (Elt F)) :
    StableHlo.after hostOps0_6 (StableHlo.after hostOps0_5 (StableHlo.after hostOps0_4 (StableHlo.after hostOps0_3
      (StableHlo.after (List.drop 39 hostOps0_2) Z)))) (Proc.devRef .tc main_arg0) = Z (Proc.devRef .tc main_arg0) := by
  rw [tail_eq]
  after_results

/-- … and argument 1. -/
theorem tail_arg1 (Z : Valuation τ sig (Elt F)) :
    StableHlo.after hostOps0_6 (StableHlo.after hostOps0_5 (StableHlo.after hostOps0_4 (StableHlo.after hostOps0_3
      (StableHlo.after (List.drop 39 hostOps0_2) Z)))) (Proc.devRef .tc main_arg1) = Z (Proc.devRef .tc main_arg1) := by
  rw [tail_eq]
  after_results

/-- The padded histogram: the histogram flattened to [8192, 4097] and padded with zeros to 4224 columns. -/
theorem tail_v37 (Z : Valuation τ sig (Elt F)) :
    (StableHlo.after hostOps0_6 (StableHlo.after hostOps0_5 (StableHlo.after hostOps0_4 (StableHlo.after hostOps0_3
      (StableHlo.after (List.drop 39 hostOps0_2) Z)))) (Proc.devRef .tc main_v37) : (⟨S8192x4224, .f32⟩ : BufTy).Contents (Elt F))
      = pad S8192x4224 ![0, 0] ![0, 127] ![0, 0]
          (shapeCast S8192x4097 (Z (Proc.devRef .tc main_v35) : (⟨S4x2048x4097, .f32⟩ : BufTy).Contents (Elt F)) shapeCasts_S4x2048x4097_S8192x4097)
          (sitofp .f32 (constantI S_ 32 0#32)) pads_S8192x4097_S8192x4224_000_01270 h_S_ := by
  rw [tail_eq]
  after_results
  rfl

/-- The padded table: the table padded with zeros to 4224 rows. -/
theorem tail_v38 (Z : Valuation τ sig (Elt F)) :
    (StableHlo.after hostOps0_6 (StableHlo.after hostOps0_5 (StableHlo.after hostOps0_4 (StableHlo.after hostOps0_3
      (StableHlo.after (List.drop 39 hostOps0_2) Z)))) (Proc.devRef .tc main_v38) : (⟨S4224x512, .f32⟩ : BufTy).Contents (Elt F))
      = pad S4224x512 ![0, 0] ![127, 0] ![0, 0] (Z (Proc.devRef .tc main_arg1) : (⟨S4097x512, .f32⟩ : BufTy).Contents (Elt F))
          (sitofp .f32 (constantI S_ 32 0#32)) pads_S4097x512_S4224x512_01270_000 h_S_ := by
  rw [tail_eq]
  after_results
  rfl

/-- x flattened to [8192, 512]. -/
theorem tail_v39 (Z : Valuation τ sig (Elt F)) :
    (StableHlo.after hostOps0_6 (StableHlo.after hostOps0_5 (StableHlo.after hostOps0_4 (StableHlo.after hostOps0_3
      (StableHlo.after (List.drop 39 hostOps0_2) Z)))) (Proc.devRef .tc main_v39) : (⟨S8192x512, .f32⟩ : BufTy).Contents (Elt F))
      = shapeCast S8192x512 (Z (Proc.devRef .tc main_arg0) : (⟨S4x2048x512, .f32⟩ : BufTy).Contents (Elt F)) shapeCasts_S4x2048x512_S8192x512 := by
  rw [tail_eq]
  after_results
  rfl

/-! ## The fifty-two operations of the histogram -/

/-- The clip's six operations with the identity transports of their typed references dropped. -/
theorem L1_eq : (hostOps0_1 : List (HloOp τ sig (Elt F))) =
  [ StableHlo.unary main_c main_call0_v0 (id : (⟨S_, .i32⟩ : BufTy).Contents (Elt F) → (⟨S_, .i32⟩ : BufTy).Contents (Elt F)),
    StableHlo.unary main_call0_v0 main_call0_v1 (broadcastInDim S4x2048x2048 ![] bcast_S_S4x2048x2048 : (⟨S_, .i32⟩ : BufTy).Contents (Elt F) → (⟨S4x2048x2048, .i32⟩ : BufTy).Contents (Elt F)),
    StableHlo.binary main_call0_v1 main_v4 main_call0_v2 (maxsi : (⟨S4x2048x2048, .i32⟩ : BufTy).Contents (Elt F) → (⟨S4x2048x2048, .i32⟩ : BufTy).Contents (Elt F) → (⟨S4x2048x2048, .i32⟩ : BufTy).Contents (Elt F)),
    StableHlo.unary main_c_0 main_call0_v3 (id : (⟨S_, .i32⟩ : BufTy).Contents (Elt F) → (⟨S_, .i32⟩ : BufTy).Contents (Elt F)),
    StableHlo.unary main_call0_v3 main_call0_v4 (broadcastInDim S4x2048x2048 ![] bcast_S_S4x2048x2048 : (⟨S_, .i32⟩ : BufTy).Contents (Elt F) → (⟨S4x2048x2048, .i32⟩ : BufTy).Contents (Elt F)),
    StableHlo.binary main_call0_v4 main_call0_v2 main_v5 (minsi : (⟨S4x2048x2048, .i32⟩ : BufTy).Contents (Elt F) → (⟨S4x2048x2048, .i32⟩ : BufTy).Contents (Elt F) → (⟨S4x2048x2048, .i32⟩ : BufTy).Contents (Elt F)) ] := rfl

/-- Three index planes stacked along a last axis of extent 3. -/
def stack3 (a b d : (⟨S4x2048x2048x1, .i32⟩ : BufTy).Contents (Elt F)) : (⟨S4x2048x2048x3, .i32⟩ : BufTy).Contents (Elt F) :=
  concatenate S4x2048x2048x3 3 [⟨S4x2048x2048x1, a⟩, ⟨S4x2048x2048x1, b⟩, ⟨S4x2048x2048x1, d⟩]
    concatenates_S4x2048x2048x1_S4x2048x2048x1_S4x2048x2048x1_S4x2048x2048x3_d3

/-- The stacking of the three index planes read back with each plane's contents at its own buffer. -/
theorem stack_result' (hxs hy) (Z : Valuation τ sig (Elt F)) :
    (StableHlo.nary (τ := τ) ![main_v30, main_v31, main_v32] main_v33
        (fun u => concatenate S4x2048x2048x3 3 [⟨S4x2048x2048x1, u 0⟩, ⟨S4x2048x2048x1, u 1⟩, ⟨S4x2048x2048x1, u 2⟩]
          concatenates_S4x2048x2048x1_S4x2048x2048x1_S4x2048x2048x1_S4x2048x2048x3_d3) hxs hy).result Z (no_index (Proc.devRef .tc main_v33))
      = stack3 (Z (Proc.devRef .tc main_v30)) (Z (Proc.devRef .tc main_v31)) (Z (Proc.devRef .tc main_v32)) := by
  rw [Cert.LibNary3.nary3_result]
  rfl

set_option maxHeartbeats 1600000 in
theorem A_v35_raw :
    (A m c (Proc.devRef .tc main_v35) : (⟨S4x2048x4097, .f32⟩ : BufTy).Contents (Elt F)) = Cert.Counts.cntOf (m ((c : Thread nD τ).loc main_arg2)) := by
  unfold A
  rw [L1_eq]
  simp only [hostOps0, hostOps0_2, List.take_succ_cons, List.take_zero]
  simp (disch := decide) only [StableHlo.after_cons, StableHlo.after_nil,
    StableHlo.nullary_result', StableHlo.unary_result', StableHlo.binary_result', StableHlo.ternary_result', StableHlo.reshape_result',
    stack_result',
    StableHlo.nullary_result_ne', StableHlo.unary_result_ne', StableHlo.binary_result_ne', StableHlo.ternary_result_ne',
    StableHlo.reshape_result_ne', StableHlo.nary_result_ne']
  unfold Cert.Counts.cntOf Cert.Counts.indices Cert.Counts.shifted stack3
  rfl

/-- Argument 1 is as launched once the histogram is written: nothing before the region writes it. -/
theorem A_arg1 : A m c (Proc.devRef .tc main_arg1) = m ((c : Thread nD τ).loc main_arg1) :=
  (tail_arg1 (A m c)).symm.trans ((congrFun (V0_eq m c) (Proc.devRef .tc main_arg1)).symm.trans (V_main_arg1 m c))

/-- Argument 0 likewise. -/
theorem A_arg0 : A m c (Proc.devRef .tc main_arg0) = m ((c : Thread nD τ).loc main_arg0) :=
  (tail_arg0 (A m c)).symm.trans ((congrFun (V0_eq m c) (Proc.devRef .tc main_arg0)).symm.trans (V_main_arg0 m c))

/-! ## The region-entry contents -/

/-- The histogram's buffer holds the histogram of the launch positions. -/
theorem V_v35 : (V m c main_v35 : (⟨S4x2048x4097, .f32⟩ : BufTy).Contents (Elt F))
    = Cert.Counts.cntOf (m ((c : Thread nD τ).loc main_arg2)) := by
  show V0 m c (Proc.devRef .tc main_v35) = _
  rw [V0_eq, tail_v35]
  exact A_v35_raw m c

/-- Staged array 0: the histogram flattened to [8192, 4097] and padded with zeros to 4224 columns. -/
theorem V_v37 : (V m c main_v37 : (⟨S8192x4224, .f32⟩ : BufTy).Contents (Elt F))
    = pad S8192x4224 ![0, 0] ![0, 127] ![0, 0]
        (shapeCast S8192x4097 (Cert.Counts.cntOf (m ((c : Thread nD τ).loc main_arg2))) shapeCasts_S4x2048x4097_S8192x4097)
        (sitofp .f32 (constantI S_ 32 0#32)) pads_S8192x4097_S8192x4224_000_01270 h_S_ := by
  show V0 m c (Proc.devRef .tc main_v37) = _
  rw [V0_eq, tail_v37, A_v35_raw]

/-- Staged array 1: the table padded with zeros to 4224 rows. -/
theorem V_v38 : (V m c main_v38 : (⟨S4224x512, .f32⟩ : BufTy).Contents (Elt F))
    = pad S4224x512 ![0, 0] ![127, 0] ![0, 0] (m ((c : Thread nD τ).loc main_arg1))
        (sitofp .f32 (constantI S_ 32 0#32)) pads_S4097x512_S4224x512_01270_000 h_S_ := by
  show V0 m c (Proc.devRef .tc main_v38) = _
  rw [V0_eq, tail_v38, A_arg1]

/-- Staged array 2: x flattened to [8192, 512]. -/
theorem V_v39 : (V m c main_v39 : (⟨S8192x512, .f32⟩ : BufTy).Contents (Elt F))
    = shapeCast S8192x512 (m ((c : Thread nD τ).loc main_arg0)) shapeCasts_S4x2048x512_S8192x512 := by
  show V0 m c (Proc.devRef .tc main_v39) = _
  rw [V0_eq, tail_v39, A_arg0]

end Cert.KernelIdeal.HandPrefix

end
-- ==== Proof.Spec.lean ====
/-
  The function both programs compute, on the extended reals.

  For a batch entry b, a position s and a feature d the result is

      x[b,s,d] + ( Σ_v cnt[b,s,v] · e[v,d] ) / 2048,

  where cnt[b,s,·] is the histogram, over the 2048 partner positions j, of the clipped and shifted offsets
  pos[b,s] − pos[b,j], and e is the table of 4097 embedding rows: the mean over the partners of the embedding
  row of each offset, written as the histogram contracted with the table.  The histogram is carried as an
  argument: both programs build it by the same host operations from the positions.
-/
import Idealize.ShloMosaic.PureOps.Ideal.Laws
import Idealize.ShloMosaic.Lib.ValueIdx

noncomputable section

open scoped BigOperators

namespace Cert.Spec

open Idealize.ShloMosaic Idealize.ShloMosaic.ValueIdx

/-- The result at the entry with coordinates (b, s, d). -/
def gAt (x : (⟨3, ![4, 2048, 512]⟩ : Shape).Idx → EReal) (e : (⟨2, ![4097, 512]⟩ : Shape).Idx → EReal)
    (cnt : (⟨3, ![4, 2048, 4097]⟩ : Shape).Idx → EReal) (b : Fin 4) (s : Fin 2048) (d : Fin 512) : EReal :=
  x (ix3 b s d) + Ideal.div (∑ v : Fin 4097, cnt (ix3 b s v) * e (ix2 v d)) (Ideal.ofBits .f32 0x45000000#32)

/-- The whole result array. -/
def G (x : (⟨3, ![4, 2048, 512]⟩ : Shape).Idx → EReal) (e : (⟨2, ![4097, 512]⟩ : Shape).Idx → EReal)
    (cnt : (⟨3, ![4, 2048, 4097]⟩ : Shape).Idx → EReal) : (⟨3, ![4, 2048, 512]⟩ : Shape).Idx → EReal :=
  fun i => gAt x e cnt (i 0) (i 1) (i 2)

theorem G_apply (x : (⟨3, ![4, 2048, 512]⟩ : Shape).Idx → EReal) (e : (⟨2, ![4097, 512]⟩ : Shape).Idx → EReal)
    (cnt : (⟨3, ![4, 2048, 4097]⟩ : Shape).Idx → EReal) (b : Fin 4) (s : Fin 2048) (d : Fin 512) :
    G x e cnt (ix3 b s d) = gAt x e cnt b s d := rfl

end Cert.Spec

end
-- ==== Proof.LibRecipDiv.lean ====
/-
  Dividing by a nonzero extended real is multiplying by its reciprocal.

  On the extended reals the ideal quotient x / y is x · y⁻¹ whenever y ≠ 0 (y may be infinite: its inverse is then 0),
  and 1 / y is y⁻¹.  So a program that scales by a precomputed reciprocal 1 / c and one that divides by c agree as soon
  as c is not zero — no finiteness of x or c is needed.  A count clamped below by one (max n 1) is such a c.
-/
import Idealize.ShloMosaic.PureOps.Ideal.Laws

noncomputable section

namespace Cert.LibRecipDiv

open Idealize.ShloMosaic

/-- The f32 word 0x3F800000 denotes the number one. -/
theorem ofBits_one_f32 : Ideal.ofBits .f32 0x3F800000#32 = 1 := by
  simp [Ideal.ofBits, Ideal.ieee, -EReal.coe_mul]; norm_num

/-- For `c ≠ 0` (finite or not), `x · (1 / c) = x / c` at the ideal values: both are `x · c⁻¹`. -/
theorem mul_one_div (x c : EReal) (hc : c ≠ 0) : x * Ideal.div 1 c = Ideal.div x c := by
  unfold Ideal.div
  rw [if_neg hc, if_neg hc, one_mul]

/-- Anything clamped below by one is not zero. -/
theorem max_one_ne_zero (n : EReal) : max n 1 ≠ 0 :=
  (lt_of_lt_of_le zero_lt_one (le_max_right n 1)).ne'

/-- The same with the one spelt as its f32 word, as a clamp against a float constant prints. -/
theorem max_oneWord_ne_zero (n : EReal) : max n (Ideal.ofBits .f32 0x3F800000#32) ≠ 0 := by
  rw [ofBits_one_f32]
  exact max_one_ne_zero n

end Cert.LibRecipDiv

end
-- ==== Proof.Algebra.lean ====
/-
  The algebra that joins the blocked accumulation to the one long sum, and the scaling to the division.

  * A sum of products over 4224 = 1408 + 1408 + 1408 consecutive positions, taken block by block starting from 0,
    is the sum over the first 4097 positions as soon as the first family vanishes from position 4097 on: the
    three blocks join into one sum over 4224 positions, which splits as 4097 + 127, and each of the last 127
    terms is 0 · b = 0.  The extended reals are an additive commutative monoid in which 0 · y = 0 for every y
    (infinite y too), so nothing needs to be finite.
  * The f32 word 0x3A000000 denotes 2⁻¹¹ = 1/2048 and the word 0x45000000 denotes 2¹¹ = 2048; dividing by the
    nonzero real 2048 is multiplying by its reciprocal, on every extended real.
-/
import Mathlib.Data.EReal.Basic
import Mathlib.Algebra.BigOperators.Fin
import Idealize.ShloMosaic.PureOps.Ideal.Laws
import proofs.«108064_j74182675136571_1_alg».proof.Proof.LibRecipDiv

noncomputable section

open scoped BigOperators

namespace Cert.Algebra

open Idealize.ShloMosaic

/-- The products a · b of two families on the first N naturals, continued by 0 from N on. -/
def prodExt {N : ℕ} (a b : Fin N → EReal) (n : ℕ) : EReal :=
  if h : n < N then a ⟨n, h⟩ * b ⟨n, h⟩ else 0

/-- Below N the continuation is the product itself. -/
theorem prodExt_of_lt {N : ℕ} (a b : Fin N → EReal) {n : ℕ} (h : n < N) :
    prodExt a b n = a ⟨n, h⟩ * b ⟨n, h⟩ := dif_pos h

/-- Three consecutive blocks of 1408 products, accumulated from 0, make the sum of the first 4097 products when
    the first family is 0 from position 4097 on. -/
theorem blocks_sum (a b : Fin 4224 → EReal) (ha : ∀ v : Fin 4224, 4097 ≤ v.val → a v = 0) :
    ((0 + ∑ l : Fin 1408, a ⟨l.val, by omega⟩ * b ⟨l.val, by omega⟩)
        + ∑ l : Fin 1408, a ⟨1408 + l.val, by omega⟩ * b ⟨1408 + l.val, by omega⟩)
        + ∑ l : Fin 1408, a ⟨2816 + l.val, by omega⟩ * b ⟨2816 + l.val, by omega⟩
      = ∑ v : Fin 4097, a ⟨v.val, by omega⟩ * b ⟨v.val, by omega⟩ := by
  have e1 : ∑ l : Fin 1408, a ⟨l.val, by omega⟩ * b ⟨l.val, by omega⟩
      = ∑ x ∈ Finset.range 1408, prodExt a b x := by
    rw [← Fin.sum_univ_eq_sum_range]
    exact Finset.sum_congr rfl fun l _ => (prodExt_of_lt a b _).symm
  have e2 : ∑ l : Fin 1408, a ⟨1408 + l.val, by omega⟩ * b ⟨1408 + l.val, by omega⟩
      = ∑ x ∈ Finset.range 1408, prodExt a b (1408 + x) := by
    rw [← Fin.sum_univ_eq_sum_range (fun x => prodExt a b (1408 + x))]
    exact Finset.sum_congr rfl fun l _ => (prodExt_of_lt a b _).symm
  have e3 : ∑ l : Fin 1408, a ⟨2816 + l.val, by omega⟩ * b ⟨2816 + l.val, by omega⟩
      = ∑ x ∈ Finset.range 1408, prodExt a b (2816 + x) := by
    rw [← Fin.sum_univ_eq_sum_range (fun x => prodExt a b (2816 + x))]
    exact Finset.sum_congr rfl fun l _ => (prodExt_of_lt a b _).symm
  have e4 : ∑ v : Fin 4097, a ⟨v.val, by omega⟩ * b ⟨v.val, by omega⟩
      = ∑ x ∈ Finset.range 4097, prodExt a b x := by
    rw [← Fin.sum_univ_eq_sum_range]
    exact Finset.sum_congr rfl fun v _ => (prodExt_of_lt a b _).symm
  have tail : ∑ x ∈ Finset.range 127, prodExt a b (4097 + x) = 0 :=
    Finset.sum_eq_zero fun x hx => by
      have hx' : 4097 + x < 4224 := by have := Finset.mem_range.mp hx; omega
      rw [prodExt_of_lt a b hx', ha ⟨4097 + x, hx'⟩ (Nat.le_add_right _ _), zero_mul]
  have s1 : ∑ x ∈ Finset.range 4224, prodExt a b x
      = ∑ x ∈ Finset.range 2816, prodExt a b x + ∑ x ∈ Finset.range 1408, prodExt a b (2816 + x) :=
    Finset.sum_range_add (prodExt a b) 2816 1408
  have s2 : ∑ x ∈ Finset.range 2816, prodExt a b x
      = ∑ x ∈ Finset.range 1408, prodExt a b x + ∑ x ∈ Finset.range 1408, prodExt a b (1408 + x) :=
    Finset.sum_range_add (prodExt a b) 1408 1408
  have s3 : ∑ x ∈ Finset.range 4224, prodExt a b x
      = ∑ x ∈ Finset.range 4097, prodExt a b x + ∑ x ∈ Finset.range 127, prodExt a b (4097 + x) :=
    Finset.sum_range_add (prodExt a b) 4097 127
  rw [e1, e2, e3, e4, zero_add, ← s2, ← s1, s3, tail, add_zero]

/-- The f32 word 0x3A000000 denotes 1/2048. -/
theorem ofBits_recip2048 : Ideal.ofBits .f32 0x3A000000#32 = ((1 / 2048 : ℝ) : EReal) := by
  simp [Ideal.ofBits, Ideal.ieee, -EReal.coe_mul]; norm_num

/-- The f32 word 0x45000000 denotes 2048. -/
theorem ofBits_2048 : Ideal.ofBits .f32 0x45000000#32 = ((2048 : ℝ) : EReal) := by
  simp [Ideal.ofBits, Ideal.ieee, -EReal.coe_mul]; norm_num

/-- Scaling by the constant 1/2048 is dividing by the constant 2048, on every extended real. -/
theorem scale_eq (x : EReal) :
    x * Ideal.ofBits .f32 0x3A000000#32 = Ideal.div x (Ideal.ofBits .f32 0x45000000#32) := by
  rw [ofBits_recip2048, ofBits_2048, Ideal.div_coe (by norm_num : (2048 : ℝ) ≠ 0)]

end Cert.Algebra

end
-- ==== Proof.Layout.lean ====
/-
  Layout operations read at an index.

  Four re-indexings, each stated over literal shapes and explicit coordinates.

  * Padding on the right: a 8192 × 4097 matrix extended to 8192 × 4224 by 127 further columns that all hold one
    padding value. Entry (r, v) of the result is entry (r, v) of the matrix when v < 4097, the padding value otherwise.
  * Padding below: a 4097 × 512 matrix extended to 4224 × 512 by 127 further rows of the padding value. Entry (v, d)
    of the result is entry (v, d) of the matrix when v < 4097, the padding value otherwise.
  * Flattening: a 4 × 2048 × C array and the 8192 × C matrix with the same elements in row-major order. Row r of the
    matrix is row r mod 2048 of slab r div 2048, because r = (r div 2048) · 2048 + r mod 2048.
  * Unflattening, the inverse: entry (b, s, d) of the 4 × 2048 × C array is entry (b · 2048 + s, d) of the matrix.

  In both reshapes the two indices have the same row-major position:
  ((b · 2048 + s) · C + d) on either side.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.Layout

open Idealize.ShloMosaic Idealize.ShloMosaic.ValueIdx

/-- a [8192,4097] matrix padded on the right with 127 columns of the padding value, read at (r, v) -/
theorem pad_cols_apply {α : Type} (a : (⟨2, ![8192, 4097]⟩ : Shape).Idx → α) (z : (⟨0, ![]⟩ : Shape).Idx → α)
    (h : (⟨2, ![8192, 4097]⟩ : Shape).Pads (![0, 0] : Fin 2 → Nat) ![0, 127] ![0, 0] ⟨2, ![8192, 4224]⟩)
    (hu : 0 < (⟨0, ![]⟩ : Shape).numel) (r : Fin 8192) (v : Fin 4224) :
    pad ⟨2, ![8192, 4224]⟩ ![0, 0] ![0, 127] ![0, 0] a z h hu (ix2 r v)
      = if hv : v.val < 4097 then a (ix2 r ⟨v.val, hv⟩) else z ix0 := by
  by_cases hv : v.val < 4097
  · rw [dif_pos hv]
    exact pad_apply_of_inside _ _ _ a z h hu _ (ix2 r (⟨v.val, hv⟩ : Fin 4097)) (fun c =>
      match c with
      | ⟨0, _⟩ => by show r.val = 0 + r.val * (0 + 1); omega
      | ⟨1, _⟩ => by show v.val = 0 + v.val * (0 + 1); omega)
  · rw [dif_neg hv]
    refine (pad_apply_of_not_inside _ _ _ a z h hu _ (1 : Fin 2) ?_).trans (congrArg z (eq_ix0 _))
    intro hin
    have e : (v.val - 0) / (0 + 1) < 4097 := hin.2.2
    omega

/-- a [4097,512] matrix padded below with 127 rows of the padding value, read at (v, d) -/
theorem pad_rows_apply {α : Type} (a : (⟨2, ![4097, 512]⟩ : Shape).Idx → α) (z : (⟨0, ![]⟩ : Shape).Idx → α)
    (h : (⟨2, ![4097, 512]⟩ : Shape).Pads (![0, 0] : Fin 2 → Nat) ![127, 0] ![0, 0] ⟨2, ![4224, 512]⟩)
    (hu : 0 < (⟨0, ![]⟩ : Shape).numel) (v : Fin 4224) (d : Fin 512) :
    pad ⟨2, ![4224, 512]⟩ ![0, 0] ![127, 0] ![0, 0] a z h hu (ix2 v d)
      = if hv : v.val < 4097 then a (ix2 ⟨v.val, hv⟩ d) else z ix0 := by
  by_cases hv : v.val < 4097
  · rw [dif_pos hv]
    exact pad_apply_of_inside _ _ _ a z h hu _ (ix2 (⟨v.val, hv⟩ : Fin 4097) d) (fun c =>
      match c with
      | ⟨0, _⟩ => by show v.val = 0 + v.val * (0 + 1); omega
      | ⟨1, _⟩ => by show d.val = 0 + d.val * (0 + 1); omega)
  · rw [dif_neg hv]
    refine (pad_apply_of_not_inside _ _ _ a z h hu _ (0 : Fin 2) ?_).trans (congrArg z (eq_ix0 _))
    intro hin
    have e : (v.val - 0) / (0 + 1) < 4097 := hin.2.2
    omega

/-- a [4,2048,C] array reshaped to [8192,C] read at (r, d) -/
theorem flatten_apply {α : Type} {C : Nat} (x : (⟨3, ![4, 2048, C]⟩ : Shape).Idx → α)
    (h : (⟨3, ![4, 2048, C]⟩ : Shape).ShapeCasts ⟨2, ![8192, C]⟩) (r : Fin 8192) (d : Fin C) :
    shapeCast ⟨2, ![8192, C]⟩ x h (ix2 r d)
      = x (ix3 ⟨r.val / 2048, by omega⟩ ⟨r.val % 2048, Nat.mod_lt _ (by norm_num)⟩ d) :=
  shapeCast_apply x h _ _ (by
    rw [Shape.rowMajor_val_three, Shape.rowMajor_val_two]
    show (r.val / 2048 * 2048 + r.val % 2048) * C + d.val = r.val * C + d.val
    rw [Nat.div_add_mod'])

/-- a [8192,C] matrix reshaped to [4,2048,C] read at (b, s, d) -/
theorem unflatten_apply {α : Type} {C : Nat} (y : (⟨2, ![8192, C]⟩ : Shape).Idx → α)
    (h : (⟨2, ![8192, C]⟩ : Shape).ShapeCasts ⟨3, ![4, 2048, C]⟩) (b : Fin 4) (s : Fin 2048) (d : Fin C) :
    shapeCast ⟨3, ![4, 2048, C]⟩ y h (ix3 b s d) = y (ix2 ⟨b.val * 2048 + s.val, by omega⟩ d) :=
  shapeCast_apply y h _ _ (by
    rw [Shape.rowMajor_val_two, Shape.rowMajor_val_three]
    show (b.val * 2048 + s.val) * C + d.val = (b.val * 2048 + s.val) * C + d.val
    rfl)

end Cert.Layout
-- ==== Proof.Bridge.lean ====
/-
  The kernel's formula is the specification.

  Write r = b · 2048 + s for the row of the flattened arrays that holds batch entry b, position s.  Then
    * the flattened x at (r, d) is x[b,s,d], because r div 2048 = b and r mod 2048 = s;
    * the flattened histogram padded with 127 zero columns is, at (r, v), cnt[b,s,v] for v < 4097 and 0 from
      column 4097 on;
    * the table padded with 127 zero rows is, at (v, d), e[v,d] for v < 4097 and 0 from row 4097 on.
  The three blocks of 1408 products accumulated from 0 therefore add up to Σ_{v<4097} cnt[b,s,v] · e[v,d] (the
  products from position 4097 on are 0 · y = 0), and multiplying that sum by 2⁻¹¹ is dividing it by 2048.  So row r,
  column d of the kernel's output is x[b,s,d] + (Σ_v cnt[b,s,v] · e[v,d]) / 2048, and reading the output back
  under the shape [4, 2048, 512] at (b, s, d) reads row r = b · 2048 + s.

  The padding value of both pads is the integer 0 converted to a float, which is the float 0.
-/
import proofs.«108064_j74182675136571_1_alg».proof.Proof.KernelSpec
import proofs.«108064_j74182675136571_1_alg».proof.Proof.Spec
import proofs.«108064_j74182675136571_1_alg».proof.Proof.Algebra
import proofs.«108064_j74182675136571_1_alg».proof.Proof.Layout
import Idealize.ShloMosaic.Lib.ValueIdx
import Idealize.ShloMosaic.Lib.KernelVsHost
import Idealize.ShloMosaic.PureOps.Ideal.Laws

noncomputable section

open scoped BigOperators

namespace Cert.Bridge

open Idealize.ShloMosaic Idealize.ShloMosaic.ValueIdx

/-- Row b · 2048 + s of a flattened [4, 2048, C] array is row s of slab b. -/
theorem flat_row {α : Type} {C : Nat} (y : (⟨3, ![4, 2048, C]⟩ : Shape).Idx → α)
    (h : (⟨3, ![4, 2048, C]⟩ : Shape).ShapeCasts ⟨2, ![8192, C]⟩) (b : Fin 4) (s : Fin 2048) (d : Fin C)
    (hr : b.val * 2048 + s.val < 8192) :
    shapeCast ⟨2, ![8192, C]⟩ y h (ix2 ⟨b.val * 2048 + s.val, hr⟩ d) = y (ix3 b s d) := by
  have e1 : (b.val * 2048 + s.val) / 2048 = b.val := by omega
  have e2 : (b.val * 2048 + s.val) % 2048 = s.val := by omega
  refine (Cert.Layout.flatten_apply y h ⟨b.val * 2048 + s.val, hr⟩ d).trans (congrArg y (funext fun a => ?_))
  match a with
  | ⟨0, _⟩ => exact Fin.ext e1
  | ⟨1, _⟩ => exact Fin.ext e2
  | ⟨2, _⟩ => rfl

/-- The flattened histogram padded with zero columns, at row b · 2048 + s: the histogram below column 4097, zero from
    there on. -/
theorem counts_row (cnt : (⟨3, ![4, 2048, 4097]⟩ : Shape).Idx → EReal) (z : (⟨0, ![]⟩ : Shape).Idx → EReal)
    (hz : z ix0 = 0)
    (hp1 : (⟨2, ![8192, 4097]⟩ : Shape).Pads (![0, 0] : Fin 2 → Nat) ![0, 127] ![0, 0] ⟨2, ![8192, 4224]⟩)
    (hu : 0 < (⟨0, ![]⟩ : Shape).numel)
    (hc1 : (⟨3, ![4, 2048, 4097]⟩ : Shape).ShapeCasts ⟨2, ![8192, 4097]⟩)
    (b : Fin 4) (s : Fin 2048) (hr : b.val * 2048 + s.val < 8192) (v : Fin 4224) :
    pad ⟨2, ![8192, 4224]⟩ ![0, 0] ![0, 127] ![0, 0] (shapeCast ⟨2, ![8192, 4097]⟩ cnt hc1) z hp1 hu
        (ix2 ⟨b.val * 2048 + s.val, hr⟩ v)
      = if hv : v.val < 4097 then cnt (ix3 b s ⟨v.val, hv⟩) else 0 := by
  refine (Cert.Layout.pad_cols_apply _ z hp1 hu _ v).trans ?_
  by_cases hv : v.val < 4097
  · rw [dif_pos hv, dif_pos hv]
    exact flat_row cnt hc1 b s ⟨v.val, hv⟩ hr
  · rw [dif_neg hv, dif_neg hv]
    exact hz

/-- The table padded with zero rows, at column d: the table above row 4097, zero from there on. -/
theorem table_col (e : (⟨2, ![4097, 512]⟩ : Shape).Idx → EReal) (z : (⟨0, ![]⟩ : Shape).Idx → EReal)
    (hz : z ix0 = 0)
    (hp2 : (⟨2, ![4097, 512]⟩ : Shape).Pads (![0, 0] : Fin 2 → Nat) ![127, 0] ![0, 0] ⟨2, ![4224, 512]⟩)
    (hu : 0 < (⟨0, ![]⟩ : Shape).numel) (v : Fin 4224) (d : Fin 512) :
    pad ⟨2, ![4224, 512]⟩ ![0, 0] ![127, 0] ![0, 0] e z hp2 hu (ix2 v d)
      = if hv : v.val < 4097 then e (ix2 ⟨v.val, hv⟩ d) else 0 := by
  refine (Cert.Layout.pad_rows_apply e z hp2 hu v d).trans ?_
  by_cases hv : v.val < 4097
  · rw [dif_pos hv, dif_pos hv]
  · rw [dif_neg hv, dif_neg hv]
    exact hz

/-- Pointwise: for matrices C, T, X that are, on row b · 2048 + s and column d, the zero-extended histogram, the
    zero-extended table and x, the kernel's output there is the specification at (b, s, d). -/
theorem outAt_eq (C : (⟨2, ![8192, 4224]⟩ : Shape).Idx → EReal) (T : (⟨2, ![4224, 512]⟩ : Shape).Idx → EReal)
    (X : (⟨2, ![8192, 512]⟩ : Shape).Idx → EReal)
    (x : (⟨3, ![4, 2048, 512]⟩ : Shape).Idx → EReal) (e : (⟨2, ![4097, 512]⟩ : Shape).Idx → EReal)
    (cnt : (⟨3, ![4, 2048, 4097]⟩ : Shape).Idx → EReal)
    (b : Fin 4) (s : Fin 2048) (d : Fin 512) (hr : b.val * 2048 + s.val < 8192)
    (hC : ∀ v : Fin 4224, C (ix2 ⟨b.val * 2048 + s.val, hr⟩ v)
      = if hv : v.val < 4097 then cnt (ix3 b s ⟨v.val, hv⟩) else 0)
    (hT : ∀ v : Fin 4224, T (ix2 v d) = if hv : v.val < 4097 then e (ix2 ⟨v.val, hv⟩ d) else 0)
    (hX : X (ix2 ⟨b.val * 2048 + s.val, hr⟩ d) = x (ix3 b s d)) :
    Cert.KernelSpec.outAt C T X ⟨b.val * 2048 + s.val, hr⟩ d = Cert.Spec.gAt x e cnt b s d := by
  unfold Cert.KernelSpec.outAt Cert.Spec.gAt
  rw [Cert.Algebra.scale_eq]
  refine congrArg₂ (· + ·) hX (congrArg (fun t => Ideal.div t _) ?_)
  refine (Cert.Algebra.blocks_sum (fun v => C (ix2 ⟨b.val * 2048 + s.val, hr⟩ v)) (fun v => T (ix2 v d))
    (fun v hv => (hC v).trans (dif_neg (by omega)))).trans ?_
  refine Finset.sum_congr rfl fun v _ => ?_
  have h1 : C (ix2 ⟨b.val * 2048 + s.val, hr⟩ ⟨v.val, by omega⟩) = cnt (ix3 b s v) :=
    (hC _).trans (dif_pos v.isLt)
  have h2 : T (ix2 ⟨v.val, by omega⟩ d) = e (ix2 v d) := (hT _).trans (dif_pos v.isLt)
  exact congrArg₂ (· * ·) h1 h2

/-- The kernel's output over the flattened, padded arrays, read back under the shape [4, 2048, 512], is the
    specification. -/
theorem bridge (x : (⟨3, ![4, 2048, 512]⟩ : Shape).Idx → EReal) (e : (⟨2, ![4097, 512]⟩ : Shape).Idx → EReal)
    (cnt : (⟨3, ![4, 2048, 4097]⟩ : Shape).Idx → EReal)
    (z : (⟨0, ![]⟩ : Shape).Idx → EReal) (hz : z ix0 = 0)
    (hp1 : (⟨2, ![8192, 4097]⟩ : Shape).Pads (![0, 0] : Fin 2 → Nat) ![0, 127] ![0, 0] ⟨2, ![8192, 4224]⟩)
    (hp2 : (⟨2, ![4097, 512]⟩ : Shape).Pads (![0, 0] : Fin 2 → Nat) ![127, 0] ![0, 0] ⟨2, ![4224, 512]⟩)
    (hu : 0 < (⟨0, ![]⟩ : Shape).numel)
    (hc1 : (⟨3, ![4, 2048, 4097]⟩ : Shape).ShapeCasts ⟨2, ![8192, 4097]⟩)
    (hc2 : (⟨3, ![4, 2048, 512]⟩ : Shape).ShapeCasts ⟨2, ![8192, 512]⟩)
    (hc3 : (⟨2, ![8192, 512]⟩ : Shape).ShapeCasts ⟨3, ![4, 2048, 512]⟩) :
    shapeCast ⟨3, ![4, 2048, 512]⟩
      (Cert.KernelSpec.Gout
        (pad ⟨2, ![8192, 4224]⟩ ![0, 0] ![0, 127] ![0, 0] (shapeCast ⟨2, ![8192, 4097]⟩ cnt hc1) z hp1 hu)
        (pad ⟨2, ![4224, 512]⟩ ![0, 0] ![127, 0] ![0, 0] e z hp2 hu) (shapeCast ⟨2, ![8192, 512]⟩ x hc2)) hc3
      = Cert.Spec.G x e cnt := by
  funext i
  obtain ⟨b, s, d, rfl⟩ : ∃ (b : Fin 4) (s : Fin 2048) (d : Fin 512), i = ix3 b s d :=
    ⟨i 0, i 1, i 2, eq_ix3 i⟩
  have hr : b.val * 2048 + s.val < 8192 := by omega
  refine (Cert.Layout.unflatten_apply _ hc3 b s d).trans ?_
  refine (Cert.KernelSpec.Gout_apply _ _ _ _ d).trans ?_
  refine (outAt_eq _ _ _ x e cnt b s d hr (fun v => counts_row cnt z hz hp1 hu hc1 b s hr v)
    (fun v => table_col e z hz hp2 hu v d) (flat_row x hc2 b s d hr)).trans ?_
  exact (Cert.Spec.G_apply x e cnt b s d).symm

/-- The integer constant 0 converted to a float is the float 0. -/
theorem sitofp_zero_ideal :
    (sitofp (F := Ideal) .f32 (constantI (⟨0, ![]⟩ : Shape) 32 0#32) : (⟨0, ![]⟩ : Shape).Idx → EReal) ix0 = 0 := by
  show ((((0#32 : BitVec 32).toInt : ℤ) : ℝ) : EReal) = 0
  simp

end Cert.Bridge
-- ==== Proof.KernelValue.lean ====
/-
  The idealized kernel's run, read: its result is the specification of its three arguments.

  The region stages the histogram flattened and padded with zero columns, the table padded with zero rows, and x
  flattened; its output is the kernel's formula of those three matrices; the result is that output reshaped.  The padded
  positions contribute zero products, the three groups of 1408 contraction positions add up to the sum over all 4097
  table rows, the scale 2^-11 is the division by 2048, and the reshapes undo each other: the result is, entry by entry,
  x[b,s,d] + (Σ_v cnt[b,s,v]·e[v,d]) / 2048.
-/
import proofs.«108064_j74182675136571_1_alg».proof.Proof.KernelFinal
import proofs.«108064_j74182675136571_1_alg».proof.Proof.Prefix
import proofs.«108064_j74182675136571_1_alg».proof.Proof.Bridge

set_option maxRecDepth 16384

noncomputable section

namespace Cert.KernelIdeal.HandValue

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.KernelIdeal.Hand Cert.KernelSpec

variable (m : (ℓ : Loc nD τ sig) → Buf (Elt Ideal) ℓ) (ρ : Dev nD → PrngReg)

open Cert.KernelIdeal.HandPrefix

/-- The output reshaped is the specification. -/
theorem value_eq (c : Dev nD) :
    (fun i => shapeCast S4x2048x512 (outArr m c) shapeCasts_S8192x512_S4x2048x512 i)
      = Cert.Spec.G (m ((c : Thread nD τ).loc main_arg0)) (m ((c : Thread nD τ).loc main_arg1))
          (Cert.Counts.cntOf (m ((c : Thread nD τ).loc main_arg2))) := by
  show shapeCast S4x2048x512 (Gout (V m c main_v37) (V m c main_v38) (V m c main_v39)) shapeCasts_S8192x512_S4x2048x512 = _
  rw [V_v37 m c, V_v38 m c, V_v39 m c]
  exact Cert.Bridge.bridge _ _ _ _ Cert.Bridge.sitofp_zero_ideal _ _ _ _ _ _

/-- Every weakly fair execution of the idealized kernel's @main terminates, without a fault, with the result buffer at
    the specification of the arguments and the arguments unchanged. -/
theorem kernel_run : θ_run defs (onTc (τ := τ) (main (F := Ideal))) ⟨m, fun _ => 0, ρ⟩ (fun r => ∀ c : Dev nD,
      r.2.mem ((c.tc : Thread nD τ).loc main_v41)
        = Cert.Spec.G (m ((c.tc : Thread nD τ).loc main_arg0)) (m ((c.tc : Thread nD τ).loc main_arg1))
            (Cert.Counts.cntOf (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v41 (Pipeline.mem_restRefs_of main_v41 (by decide) (by decide))).trans ((result41 m c).trans (value_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.HandValue

end
-- ==== Proof.RefSide.lean ====
/-
  The reference's result as one function of its three argument arrays.

  The reference adds to x[b,s,d] the quotient by 2048 of the contraction, over the 4097 offsets v, of the
  histogram cnt[b,s,v] with the embedding table e[v,d].  Read at an index, the host operations after the
  histogram (a contraction of the last axis of the histogram with the first axis of the table, a division
  by the constant 2048 broadcast to the result's shape, and the addition of x) give exactly that number;
  the histogram itself is the same composition of host operations as in the kernel's program, carried as
  one opaque function of the positions and never opened.

  From this the reference's run follows: every execution ends with the result array equal to that function
  of the argument arrays, and with the argument arrays unchanged.
-/
import proofs.«108064_j74182675136571_1_alg».proof.Proof.RefRun
import proofs.«108064_j74182675136571_1_alg».proof.Proof.Spec
import proofs.«108064_j74182675136571_1_alg».proof.Proof.Counts
import proofs.«108064_j74182675136571_1_alg».proof.Defs
import Idealize.ShloMosaic.Lib.Pipeline.Value
import Idealize.ShloMosaic.Lib.ValueIdx
import Idealize.ShloMosaic.PureOps.Ideal.Laws

noncomputable section

open scoped BigOperators

namespace Cert.RefSide

open Idealize.ShloMosaic Idealize.ShloMosaic.ValueIdx Idealize.SL.Sem
open Cert.ReferenceIdeal Cert.ReferenceIdeal.Facts₀

variable [Cert.KernelIdeal.Facts] [Cert.ReferenceIdeal.Facts]

/-! ## The contraction's operand indices, coordinate by coordinate

The contraction takes the histogram's axis 2 against the table's axis 0; the histogram's axes 0 and 1 and the
table's axis 1 are, in this order, the result's three axes. -/

/-- The histogram index's batch coordinate is the result's. -/
theorem lhs_0 (j : S4x2048x512.Idx) (k : dot_S4x2048x4097_S4097x512_S4x2048x512_2_0_01_1_n_n.contr.Idx) :
    (dot_S4x2048x4097_S4097x512_S4x2048x512_2_0_01_1_n_n.lhsIdx j k 0).val = (j 0).val := by
  unfold DotDims.lhsIdx
  have hb : ¬(0 : Fin 3) ∈ dot_S4x2048x4097_S4097x512_S4x2048x512_2_0_01_1_n_n.lhsBatch := List.not_mem_nil
  have hn : (0 : Fin 3) ∈ dot_S4x2048x4097_S4097x512_S4x2048x512_2_0_01_1_n_n.lhsNonContracting := List.mem_cons_self
  rw [dif_neg hb, dif_pos hn]
  rfl

/-- The histogram index's row coordinate is the result's. -/
theorem lhs_1 (j : S4x2048x512.Idx) (k : dot_S4x2048x4097_S4097x512_S4x2048x512_2_0_01_1_n_n.contr.Idx) :
    (dot_S4x2048x4097_S4097x512_S4x2048x512_2_0_01_1_n_n.lhsIdx j k 1).val = (j 1).val := by
  unfold DotDims.lhsIdx
  have hb : ¬(1 : Fin 3) ∈ dot_S4x2048x4097_S4097x512_S4x2048x512_2_0_01_1_n_n.lhsBatch := List.not_mem_nil
  have hn : (1 : Fin 3) ∈ dot_S4x2048x4097_S4097x512_S4x2048x512_2_0_01_1_n_n.lhsNonContracting :=
    List.mem_cons_of_mem _ List.mem_cons_self
  rw [dif_neg hb, dif_pos hn]
  rfl

/-- The histogram index's offset coordinate is the contraction position. -/
theorem lhs_2 (j : S4x2048x512.Idx) (k : dot_S4x2048x4097_S4097x512_S4x2048x512_2_0_01_1_n_n.contr.Idx) :
    (dot_S4x2048x4097_S4097x512_S4x2048x512_2_0_01_1_n_n.lhsIdx j k 2).val = (k ⟨0, Nat.one_pos⟩).val :=
  dot_S4x2048x4097_S4097x512_S4x2048x512_2_0_01_1_n_n.lhsIdx_val_of_single rfl j k

/-- The table index's row coordinate is the contraction position. -/
theorem rhs_0 (j : S4x2048x512.Idx) (k : dot_S4x2048x4097_S4097x512_S4x2048x512_2_0_01_1_n_n.contr.Idx) :
    (dot_S4x2048x4097_S4097x512_S4x2048x512_2_0_01_1_n_n.rhsIdx j k 0).val = (k ⟨0, Nat.one_pos⟩).val :=
  dot_S4x2048x4097_S4097x512_S4x2048x512_2_0_01_1_n_n.rhsIdx_val_of_single rfl j k

/-- The table index's column coordinate is the result's feature coordinate. -/
theorem rhs_1 (j : S4x2048x512.Idx) (k : dot_S4x2048x4097_S4097x512_S4x2048x512_2_0_01_1_n_n.contr.Idx) :
    (dot_S4x2048x4097_S4097x512_S4x2048x512_2_0_01_1_n_n.rhsIdx j k 1).val = (j 2).val := by
  unfold DotDims.rhsIdx
  have hb : ¬(1 : Fin 2) ∈ dot_S4x2048x4097_S4097x512_S4x2048x512_2_0_01_1_n_n.rhsBatch := List.not_mem_nil
  have hn : (1 : Fin 2) ∈ dot_S4x2048x4097_S4097x512_S4x2048x512_2_0_01_1_n_n.rhsNonContracting := List.mem_cons_self
  rw [dif_neg hb, dif_pos hn]
  rfl

/-- The contraction read at an index: entry (b, s, d) of the contraction of the histogram's last axis with the
    table's first axis is the sum over the 4097 offsets v of cnt[b,s,v] · e[v,d]. -/
theorem dot_apply (cnt : (⟨S4x2048x4097, .f32⟩ : BufTy).Contents (Elt Ideal))
    (e : (⟨S4097x512, .f32⟩ : BufTy).Contents (Elt Ideal)) (b : Fin 4) (s : Fin 2048) (d : Fin 512) :
    Host.dotGeneral (F := Ideal) (φ₁ := .f32) (φ₂ := .f32) dot_S4x2048x4097_S4097x512_S4x2048x512_2_0_01_1_n_n none cnt e (ix3 b s d)
      = ∑ v : Fin 4097, cnt (ix3 b s v) * e (ix2 v d) := by
  simp only [Host.dotGeneral]
  rw [Ideal.dotGeneral_apply,
    ← Equiv.sum_comp (contrEquiv1 dot_S4x2048x4097_S4097x512_S4x2048x512_2_0_01_1_n_n 4097 rfl rfl).symm]
  refine Finset.sum_congr rfl fun v _ => ?_
  have hv := contrEquiv1_symm_val dot_S4x2048x4097_S4097x512_S4x2048x512_2_0_01_1_n_n 4097 rfl rfl v
  have el : dot_S4x2048x4097_S4097x512_S4x2048x512_2_0_01_1_n_n.lhsIdx (ix3 b s d)
      ((contrEquiv1 dot_S4x2048x4097_S4097x512_S4x2048x512_2_0_01_1_n_n 4097 rfl rfl).symm v) = ix3 b s v :=
    funext fun a => Fin.ext (by
      match a with
      | ⟨0, _⟩ => exact lhs_0 _ _
      | ⟨1, _⟩ => exact lhs_1 _ _
      | ⟨2, _⟩ => exact (lhs_2 _ _).trans hv)
  have er : dot_S4x2048x4097_S4097x512_S4x2048x512_2_0_01_1_n_n.rhsIdx (ix3 b s d)
      ((contrEquiv1 dot_S4x2048x4097_S4097x512_S4x2048x512_2_0_01_1_n_n 4097 rfl rfl).symm v) = ix2 v d :=
    funext fun a => Fin.ext (by
      match a with
      | ⟨0, _⟩ => exact (rhs_0 _ _).trans hv
      | ⟨1, _⟩ => exact rhs_1 _ _)
  rw [el, er]

/-! ## The result -/

/-- The operations after the histogram, with the histogram an arbitrary array: x plus the contraction divided
    by 2048, entry by entry. -/
theorem ref_result_cnt (x : (⟨S4x2048x512, .f32⟩ : BufTy).Contents (Elt Ideal))
    (e : (⟨S4097x512, .f32⟩ : BufTy).Contents (Elt Ideal)) (cnt : (⟨S4x2048x4097, .f32⟩ : BufTy).Contents (Elt Ideal)) :
    addf x (Host.divf (F := Ideal) (Host.dotGeneral (F := Ideal) (φ₁ := .f32) (φ₂ := .f32) dot_S4x2048x4097_S4097x512_S4x2048x512_2_0_01_1_n_n none cnt e)
      (broadcastInDim S4x2048x512 ![] bcast_S_S4x2048x512 (constant (F := Ideal) S_ .f32 0x45000000#32)))
      = Cert.Spec.G x e cnt := by
  funext i
  obtain ⟨b, s, d, rfl⟩ : ∃ (b : Fin 4) (s : Fin 2048) (d : Fin 512), i = ix3 b s d := ⟨i 0, i 1, i 2, eq_ix3 i⟩
  show x (ix3 b s d) + Ideal.div
        (Host.dotGeneral (F := Ideal) (φ₁ := .f32) (φ₂ := .f32) dot_S4x2048x4097_S4097x512_S4x2048x512_2_0_01_1_n_n none cnt e (ix3 b s d))
        (broadcastInDim S4x2048x512 ![] bcast_S_S4x2048x512 (constant (F := Ideal) S_ .f32 0x45000000#32) (ix3 b s d))
      = x (ix3 b s d) + Ideal.div (∑ v : Fin 4097, cnt (ix3 b s v) * e (ix2 v d)) (Ideal.ofBits .f32 0x45000000#32)
  rw [dot_apply cnt e b s d,
    broadcastInDim_apply (![] : Fin 0 → Fin 3) bcast_S_S4x2048x512 _ (ix3 b s d) ix0 (fun a => a.elim0)]
  rfl

/-- The reference's result as a function of the three argument arrays, the histogram written as the histogram
    function of the positions. -/
theorem ref_result (x : (⟨S4x2048x512, .f32⟩ : BufTy).Contents (Elt Ideal))
    (e : (⟨S4097x512, .f32⟩ : BufTy).Contents (Elt Ideal)) (p : (⟨S4x2048, .i32⟩ : BufTy).Contents (Elt Ideal)) :
    addf x (Host.divf (F := Ideal)
        (Host.dotGeneral (F := Ideal) (φ₁ := .f32) (φ₂ := .f32) dot_S4x2048x4097_S4097x512_S4x2048x512_2_0_01_1_n_n none (Cert.Counts.cntOf (F := Ideal) p) e)
        (broadcastInDim S4x2048x512 ![] bcast_S_S4x2048x512 (constant (F := Ideal) S_ .f32 0x45000000#32)))
      = Cert.Spec.G x e (Cert.Counts.cntOf (F := Ideal) p) :=
  ref_result_cnt x e _

/-! ## The run -/

/-- The reference's run: every execution ends with the result array equal to x plus the contraction of the
    histogram of the positions with the table, divided by 2048, and with the three argument arrays unchanged.
    The histogram term the run states and the histogram function of the positions are the same composition of
    the same operations, so the two agree without either being opened. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v39)
        = Cert.Spec.G (m' ((c.tc : Thread nD τ).loc main_arg0)) (m' ((c.tc : Thread nD τ).loc main_arg1))
            (Cert.Counts.cntOf (F := Ideal) (m' ((c.tc : Thread nD τ).loc main_arg2)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) :=
  (θ_run _ _ _).mono
    (fun _ h c => ⟨(h c).1.trans (ref_result (m' ((c.tc : Thread nD τ).loc main_arg0)) (m' ((c.tc : Thread nD τ).loc main_arg1))
        (m' ((c.tc : Thread nD τ).loc main_arg2))), (h c).2⟩)
    (Cert.ReferenceIdeal.ValueP.run (F := Ideal) m' ρ')

/-- The reference runs to the end and leaves its argument arrays unchanged. -/
theorem ref_frame [Cert.Pre_finite_inputs.Facts] : Cert.frame_ReferenceIdeal :=
  fun m ρ _ => (θ_run _ _ _).mono (fun _ h c => (h c).2) (Cert.ReferenceIdeal.ValueP.run (F := Ideal) m ρ)

end Cert.RefSide

end
-- ==== Proof.lean ====
/-
  The five claims.

  Both printed kernels (the word-level one and its idealization, the same text read at two float instances) run to their
  end, fault nowhere and leave their three argument arrays unchanged: their frames.  The reference is a straight line of
  host operations: its frame is its run.  The idealization rewrote no operation.  And at the ideal instance the two
  programs, started from memories agreeing on the arguments, end with the same result array: each result is, entry by
  entry,  x[b,s,d] + (Σ_v cnt[b,s,v] · e[v,d]) / 2048  with cnt the histogram of clipped relative offsets of the positions
  — the kernel reaching it through three accumulated blocks of a padded product scaled by 2^-11, the reference through one
  contraction divided by 2048.  No finiteness of the inputs is used: the padded positions contribute 0 · 0, regrouping a
  sum is exact on the extended reals, and multiplying by 2^-11 is dividing by 2048 for every extended real.
-/
import proofs.«108064_j74182675136571_1_alg».proof.Defs
import proofs.«108064_j74182675136571_1_alg».proof.Proof.Gen.Kernel
import proofs.«108064_j74182675136571_1_alg».proof.Proof.Gen.KernelIdeal
import proofs.«108064_j74182675136571_1_alg».proof.Proof.Gen.ReferenceIdeal
import proofs.«108064_j74182675136571_1_alg».proof.Proof.Gen.Pre_finite_inputs
import proofs.«108064_j74182675136571_1_alg».proof.Proof.KFrame
import proofs.«108064_j74182675136571_1_alg».proof.Proof.KernelValue
import proofs.«108064_j74182675136571_1_alg».proof.Proof.RefSide

noncomputable section

namespace Cert.Proof

open Idealize.ShloMosaic Idealize.SL.Sem

/-- The word-level kernel's frame. -/
theorem frame_kernel : Cert.frame_Kernel (hKernel := Cert.Kernel.Gen.facts) (hPre_finite_inputs := Cert.Pre_finite_inputs.Gen.facts) :=
  fun m ρ _ => Cert.Kernel.Hand.frame m ρ

/-- The idealized kernel's frame. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The two idealized programs end with the same result: both results are the specification of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (Cert.Counts.cntOf (m ((c.tc : Thread Cert.KernelIdeal.nD Cert.KernelIdeal.τ).loc Cert.KernelIdeal.main_arg2))),
    Cert.KernelIdeal.HandValue.kernel_run m ρ, ?_⟩
  refine (θ_run Cert.ReferenceIdeal.defs _ _).mono (fun _ h c => ⟨(h c).1.trans ?_, (h c).2⟩) (Cert.RefSide.ref_run m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, Cert.RefSide.ref_frame, trivial, algebraic⟩

end Cert.Proof

end
